-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x512 : Shape := ⟨3, ![2, 512, 512]⟩
abbrev S2x512x512x256 : Shape := ⟨4, ![2, 512, 512, 256]⟩
abbrev S512x256 : Shape := ⟨2, ![512, 256]⟩
abbrev S256 : Shape := ⟨1, ![256]⟩
abbrev S_ : Shape := ⟨0, ![]⟩

class Facts : Prop where
  bcast_S_S2x512x512 : S_.BroadcastsInDim S2x512x512 (![] : Fin 0 → Fin S2x512x512.rank)
  reducesTo_S2x512x512_S_d0_1_2 : S2x512x512.ReducesTo [0, 1, 2] S_
  h_S_ : 0 < S_.numel
  bcast_S_S2x512x512x256 : S_.BroadcastsInDim S2x512x512x256 (![] : Fin 0 → Fin S2x512x512x256.rank)
  reducesTo_S2x512x512x256_S_d0_1_2_3 : S2x512x512x256.ReducesTo [0, 1, 2, 3] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_arg8 : FVec F S512x256 .f32) (main_arg9 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S512x256 .f32 := Host.absf main_arg8
  let main_cst_14 : FVec F S_ .f32 := constant S_ .f32 0x7F800000#32
  let main_v40 : FVec F S512x256 .f32 := broadcastInDim S512x256 ![] bcast_S_S512x256 main_cst_14
  let main_v41 : IVec S512x256 1 := cmpf .olt main_v39 main_v40
  let main_c_15 : IVec S_ 1 := constantI S_ 1 1#1
  let main_v42 : IVec S_ 1 := (fun x v => Host.reduce IntOp.andi x v reducesTo_S512x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg4 : FVec F S512x256 .f32) (main_arg5 : FVec F S256 .f32) (main_arg6 : FVec F S512x256 .f32) (main_arg7 : FVec F S256 .f32) (main_arg8 : FVec F S512x256 .f32) (main_arg9 : FVec F S256 .f32) (main_v13 : IVec S_ 1) (main_v16 : IVec S2x512x512x256 1) : IVec S_ 1 :=
  let main_c_5 : IVec S_ 1 := constantI S_ 1 1#1
  let main_v17 : IVec S_ 1 := (fun x v => Host.reduce IntOp.andi x v reducesTo_S2x512x512x256_S_d0_1_2_3 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x256 .f32 := Host.absf main_arg6
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S2x512x512 .f32) (main_arg1 : FVec F S2x512x512 .f32) (main_arg2 : FVec F S2x512x512 .f32) (main_arg3 : FVec F S2x512x512x256 .f32) (main_arg4 : FVec F S512x256 .f32) (main_arg5 : FVec F S256 .f32) (main_arg6 : FVec F S512x256 .f32) (main_arg7 : FVec F S256 .f32) (main_arg8 : FVec F S512x256 .f32) (main_arg9 : FVec F S256 .f32) : IVec S_ 1 :=
  let main_v0 : FVec F S2x512x512 .f32 := Host.absf main_arg0
  let main_cst : FVec F S_ .f32 := constant S_ .f32 0x7F800000#32
  let main_v1 : FVec F S2x512x512 .f32 := broadcastInDim S2x512x512 ![] bcast_S_S2x512x512 main_cst
  let main_v2 : IVec S2x512x512 1 := cmpf .olt main_v0 main_v1
  let main_c : IVec S_ 1 := constantI S_ 1 1#1
  let main_v3 : IVec S_ 1 := (fun x v => Host.reduce IntOp.andi x v reducesTo_S2x512x512_S_d0_1_2 h_S_) main_v2 main_c
  let main_v4 : FVec F S2x512x512 .f32 := Host.absf main_arg1
  let main_cst_0 : FVec F S_ .f32 := constant S_ .f32 0x7F800000#32
  let main_v5 : FVec F S2x512x512 .f32 := broadcastInDim S2x512x512 ![] bcast_S_S2x512x512 main_cst_0
  let main_v6 : IVec S2x512x512 1 := cmpf .olt main_v4 main_v5
  let main_c_1 : IVec S_ 1 := constantI S_ 1 1#1
  let main_v7 : IVec S_ 1 := (fun x v => Host.reduce IntOp.andi x v reducesTo_S2x512x512_S_d0_1_2 h_S_) main_v6 main_c_1
  let main_v8 : IVec S_ 1 := andi main_v3 main_v7
  let main_v9 : FVec F S2x512x512 .f32 := Host.absf main_arg2
  let main_cst_2 : FVec F S_ .f32 := constant S_ .f32 0x7F800000#32
  let main_v10 : FVec F S2x512x512 .f32 := broadcastInDim S2x512x512 ![] bcast_S_S2x512x512 main_cst_2
  let main_v11 : IVec S2x512x512 1 := cmpf .olt main_v9 main_v10
  let main_c_3 : IVec S_ 1 := constantI S_ 1 1#1
  let main_v12 : IVec S_ 1 := (fun x v => Host.reduce IntOp.andi x v reducesTo_S2x512x512_S_d0_1_2 h_S_) main_v11 main_c_3
  let main_v13 : IVec S_ 1 := andi main_v8 main_v12
  let main_v14 : FVec F S2x512x512x256 .f32 := Host.absf main_arg3
  let main_cst_4 : FVec F S_ .f32 := constant S_ .f32 0x7F800000#32
  let main_v15 : FVec F S2x512x512x256 .f32 := broadcastInDim S2x512x512x256 ![] bcast_S_S2x512x512x256 main_cst_4
  let main_v16 : IVec S2x512x512x256 1 := cmpf .olt main_v14 main_v15
  fn_part1 (F := F) main_arg4 main_arg5 main_arg6 main_arg7 main_arg8 main_arg9 main_v13 main_v16
-- ==== Kernel.lean ====
abbrev S2x512x512 : Shape := ⟨3, ![2, 512, 512]⟩
abbrev S2x512x512x256 : Shape := ⟨4, ![2, 512, 512, 256]⟩
abbrev S512x256 : Shape := ⟨2, ![512, 256]⟩
abbrev S256 : Shape := ⟨1, ![256]⟩
abbrev S1x256 : Shape := ⟨2, ![1, 256]⟩
abbrev S2x512x256 : Shape := ⟨3, ![2, 512, 256]⟩
abbrev S1x512x512 : Shape := ⟨3, ![1, 512, 512]⟩
abbrev S1x512x256 : Shape := ⟨3, ![1, 512, 256]⟩
abbrev S512x512 : Shape := ⟨2, ![512, 512]⟩
abbrev S512 : Shape := ⟨1, ![512]⟩
abbrev S512x1 : Shape := ⟨2, ![512, 1]⟩
abbrev S1x32x256 : Shape := ⟨3, ![1, 32, 256]⟩
abbrev S1x128x256 : Shape := ⟨3, ![1, 128, 256]⟩
abbrev S1x32x128x256 : Shape := ⟨4, ![1, 32, 128, 256]⟩
abbrev S1x32x128 : Shape := ⟨3, ![1, 32, 128]⟩
abbrev S32x256 : Shape := ⟨2, ![32, 256]⟩
abbrev S128x256 : Shape := ⟨2, ![128, 256]⟩
abbrev S32x128x256 : Shape := ⟨3, ![32, 128, 256]⟩
abbrev S32x1x256 : Shape := ⟨3, ![32, 1, 256]⟩
abbrev S32x128 : Shape := ⟨2, ![32, 128]⟩
abbrev S32x128x1 : Shape := ⟨3, ![32, 128, 1]⟩

abbrev nBuf : Space → Nat
  | .hbm => 15
  | .vmem => 20
  | .smem => 0
  | _ => 0

abbrev bufTy : (tb : Table) → Fin (tcTables nBuf tb) → BufTy
  | .hbm, ⟨0, _⟩ => ⟨S2x512x512, .f32⟩
  | .hbm, ⟨1, _⟩ => ⟨S2x512x512, .f32⟩
  | .hbm, ⟨2, _⟩ => ⟨S2x512x512, .f32⟩
  | .hbm, ⟨3, _⟩ => ⟨S2x512x512x256, .f32⟩
  | .hbm, ⟨4, _⟩ => ⟨S512x256, .f32⟩
  | .hbm, ⟨5, _⟩ => ⟨S256, .f32⟩
  | .hbm, ⟨6, _⟩ => ⟨S512x256, .f32⟩
  | .hbm, ⟨7, _⟩ => ⟨S256, .f32⟩
  | .hbm, ⟨8, _⟩ => ⟨S512x256, .f32⟩
  | .hbm, ⟨9, _⟩ => ⟨S256, .f32⟩
  | .hbm, ⟨10, _⟩ => ⟨S1x256, .f32⟩
  | .hbm, ⟨11, _⟩ => ⟨S1x256, .f32⟩
  | .hbm, ⟨12, _⟩ => ⟨S2x512x256, .f32⟩
  | .hbm, ⟨13, _⟩ => ⟨S2x512x256, .f32⟩
  | .hbm, ⟨14, _⟩ => ⟨S2x512x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S512x256, .f32⟩
  | .local _ .vmem, ⟨5, _⟩ => ⟨S1x256, .f32⟩
  | .local _ .vmem, ⟨6, _⟩ => ⟨S512x256, .f32⟩
  | .local _ .vmem, ⟨7, _⟩ => ⟨S1x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x32x256, .f32⟩
  | .local _ .vmem, ⟨13, _⟩ => ⟨S1x32x256, .f32⟩
  | .local _ .vmem, ⟨14, _⟩ => ⟨S1x128x256, .f32⟩
  | .local _ .vmem, ⟨15, _⟩ => ⟨S1x128x256, .f32⟩
  | .local _ .vmem, ⟨16, _⟩ => ⟨S1x32x128x256, .f32⟩
  | .local _ .vmem, ⟨17, _⟩ => ⟨S1x32x128x256, .f32⟩
  | .local _ .vmem, ⟨18, _⟩ => ⟨S1x32x128, .f32⟩
  | .local _ .vmem, ⟨19, _⟩ => ⟨S1x32x128, .f32⟩
  | _, _ => ⟨S2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨3, ![2, 16, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x32x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x32x128x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x32x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

class Facts₀ : Prop where
  shapeCasts_S256_S1x256 : S256.ShapeCasts S1x256
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  reduces_S512x256_S512 : S512x256.Reduces [1] S512
  shapeCasts_S512_S512x1 : S512.ShapeCasts S512x1
  broadcasts_S512x1_S512x256 : S512x1.Broadcasts S512x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  inb_S1x32x256_S1x32x256_0_0_0 : ∀ a, (![0, 0, 0] : Fin 3 → Nat) a + S1x32x256.size a ≤ S1x32x256.size a
  h_S1x32x256 : 0 < S1x32x256.numel
  shapeCasts_S1x32x256_S32x256 : S1x32x256.ShapeCasts S32x256
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  inb_S1x32x128x256_S1x32x128x256_0_0_0_0 : ∀ a, (![0, 0, 0, 0] : Fin 4 → Nat) a + S1x32x128x256.size a ≤ S1x32x128x256.size a
  h_S1x32x128x256 : 0 < S1x32x128x256.numel
  shapeCasts_S1x32x128x256_S32x128x256 : S1x32x128x256.ShapeCasts S32x128x256
  shapeCasts_S32x256_S32x1x256 : S32x256.ShapeCasts S32x1x256
  broadcasts_S32x1x256_S32x128x256 : S32x1x256.Broadcasts S32x128x256
  reduces_S32x128x256_S32x128 : S32x128x256.Reduces [2] S32x128
  shapeCasts_S32x128_S32x128x1 : S32x128.ShapeCasts S32x128x1
  broadcasts_S32x128x1_S32x128x256 : S32x128x1.Broadcasts S32x128x256
  shapeCasts_S128x256_S1x128x256 : S128x256.ShapeCasts S1x128x256
  broadcasts_S1x128x256_S32x128x256 : S1x128x256.Broadcasts S32x128x256
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  shapeCasts_S32x128_S1x32x128 : S32x128.ShapeCasts S1x32x128
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S2x512x512.size a
  hwx0_0 : ∀ i : grid0.Coords, EltTy.bits .f32 = 32 ∨ (Rect.block (s := S2x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S2x512x512.size a
  hwx0_1 : ∀ i : grid0.Coords, EltTy.bits .f32 = 32 ∨ (Rect.block (s := S2x512x512) S1x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x256.size a
  hwx0_4 : ∀ i : grid0.Coords, EltTy.bits .f32 = 32 ∨ (Rect.block (s := S512x256) S512x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x256.size a ≤ S2x512x256.size a
  hwx0_6 : ∀ i : grid0.Coords, EltTy.bits .f32 = 32 ∨ (Rect.block (s := S2x512x256) S1x512x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x256.size a ≤ S2x512x256.size a
  hwx0_7 : ∀ i : grid0.Coords, EltTy.bits .f32 = 32 ∨ (Rect.block (s := S2x512x256) S1x512x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x256.size a ≤ S2x512x256.size a
  hwx1_0 : ∀ i : grid1.Coords, EltTy.bits .f32 = 32 ∨ (Rect.block (s := S2x512x256) S1x32x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x256.size a ≤ S2x512x256.size a
  hwx1_1 : ∀ i : grid1.Coords, EltTy.bits .f32 = 32 ∨ (Rect.block (s := S2x512x256) S1x128x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x32x128x256.size a ≤ S2x512x512x256.size a
  hwx1_2 : ∀ i : grid1.Coords, EltTy.bits .f32 = 32 ∨ (Rect.block (s := S2x512x512x256) S1x32x128x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x32x128.size a ≤ S2x512x512.size a
  hwx1_3 : ∀ i : grid1.Coords, EltTy.bits .f32 = 32 ∨ (Rect.block (s := S2x512x512) S1x32x128.size (cc1_transform_3 i) (hinb1_3 i)).WholeWords (EltTy.packing .f32)

variable [Facts₀]

def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S512x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S1x512x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S1x512x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v2_0) S1x32x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_0) S1x128x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1x32x128x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x32x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x512x512 : Shape := ⟨3, ![2, 512, 512]⟩
abbrev S2x512x512x256 : Shape := ⟨4, ![2, 512, 512, 256]⟩
abbrev S512x256 : Shape := ⟨2, ![512, 256]⟩
abbrev S256 : Shape := ⟨1, ![256]⟩
abbrev S2x512x256 : Shape := ⟨3, ![2, 512, 256]⟩
abbrev S1x1x256 : Shape := ⟨3, ![1, 1, 256]⟩
abbrev S_ : Shape := ⟨0, ![]⟩
abbrev S2x512 : Shape := ⟨2, ![2, 512]⟩
abbrev S2x512x1 : Shape := ⟨3, ![2, 512, 1]⟩
abbrev S2x1x512x256 : Shape := ⟨4, ![2, 1, 512, 256]⟩
abbrev S2x512x1x256 : Shape := ⟨4, ![2, 512, 1, 256]⟩
abbrev S2x512x512x1 : Shape := ⟨4, ![2, 512, 512, 1]⟩

abbrev nBuf : Space → Nat
  | .hbm => 70
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S2x512x512, .f32⟩
  | .hbm, ⟨2, _⟩ => ⟨S2x512x512, .f32⟩
  | .hbm, ⟨3, _⟩ => ⟨S2x512x512x256, .f32⟩
  | .hbm, ⟨4, _⟩ => ⟨S512x256, .f32⟩
  | .hbm, ⟨5, _⟩ => ⟨S256, .f32⟩
  | .hbm, ⟨6, _⟩ => ⟨S512x256, .f32⟩
  | .hbm, ⟨7, _⟩ => ⟨S256, .f32⟩
  | .hbm, ⟨8, _⟩ => ⟨S512x256, .f32⟩
  | .hbm, ⟨9, _⟩ => ⟨S256, .f32⟩
  | .hbm, ⟨10, _⟩ => ⟨S2x512x256, .f32⟩
  | .hbm, ⟨11, _⟩ => ⟨S1x1x256, .f32⟩
  | .hbm, ⟨12, _⟩ => ⟨S2x512x256, .f32⟩
  | .hbm, ⟨13, _⟩ => ⟨S2x512x256, .f32⟩
  | .hbm, ⟨14, _⟩ => ⟨S2x512x256, .f32⟩
  | .hbm, ⟨15, _⟩ => ⟨S_, .f32⟩
  | .hbm, ⟨16, _⟩ => ⟨S2x512, .f32⟩
  | .hbm, ⟨17, _⟩ => ⟨S2x512x1, .f32⟩
  | .hbm, ⟨18, _⟩ => ⟨S_, .f32⟩
  | .hbm, ⟨19, _⟩ => ⟨S2x512x1, .f32⟩
  | .hbm, ⟨20, _⟩ => ⟨S2x512x1, .f32⟩
  | .hbm, ⟨21, _⟩ => ⟨S2x512x1, .f32⟩
  | .hbm, ⟨22, _⟩ => ⟨S2x512x256, .f32⟩
  | .hbm, ⟨23, _⟩ => ⟨S2x512x256, .f32⟩
  | .hbm, ⟨24, _⟩ => ⟨S2x512x256, .f32⟩
  | .hbm, ⟨25, _⟩ => ⟨S1x1x256, .f32⟩
  | .hbm, ⟨26, _⟩ => ⟨S2x512x256, .f32⟩
  | .hbm, ⟨27, _⟩ => ⟨S2x512x256, .f32⟩
  | .hbm, ⟨28, _⟩ => ⟨S2x512x256, .f32⟩
  | .hbm, ⟨29, _⟩ => ⟨S_, .f32⟩
  | .hbm, ⟨30, _⟩ => ⟨S2x512, .f32⟩
  | .hbm, ⟨31, _⟩ => ⟨S2x512x1, .f32⟩
  | .hbm, ⟨32, _⟩ => ⟨S_, .f32⟩
  | .hbm, ⟨33, _⟩ => ⟨S2x512x1, .f32⟩
  | .hbm, ⟨34, _⟩ => ⟨S2x512x1, .f32⟩
  | .hbm, ⟨35, _⟩ => ⟨S2x512x1, .f32⟩
  | .hbm, ⟨36, _⟩ => ⟨S2x512x256, .f32⟩
  | .hbm, ⟨37, _⟩ => ⟨S2x512x256, .f32⟩
  | .hbm, ⟨38, _⟩ => ⟨S2x512x256, .f32⟩
  | .hbm, ⟨39, _⟩ => ⟨S1x1x256, .f32⟩
  | .hbm, ⟨40, _⟩ => ⟨S2x512x256, .f32⟩
  | .hbm, ⟨41, _⟩ => ⟨S2x512x256, .f32⟩
  | .hbm, ⟨42, _⟩ => ⟨S2x512x256, .f32⟩
  | .hbm, ⟨43, _⟩ => ⟨S_, .f32⟩
  | .hbm, ⟨44, _⟩ => ⟨S2x512, .f32⟩
  | .hbm, ⟨45, _⟩ => ⟨S2x512x1, .f32⟩
  | .hbm, ⟨46, _⟩ => ⟨S_, .f32⟩
  | .hbm, ⟨47, _⟩ => ⟨S2x512x1, .f32⟩
  | .hbm, ⟨48, _⟩ => ⟨S2x512x1, .f32⟩
  | .hbm, ⟨49, _⟩ => ⟨S2x512x1, .f32⟩
  | .hbm, ⟨50, _⟩ => ⟨S2x512x256, .f32⟩
  | .hbm, ⟨51, _⟩ => ⟨S2x512x256, .f32⟩
  | .hbm, ⟨52, _⟩ => ⟨S2x1x512x256, .f32⟩
  | .hbm, ⟨53, _⟩ => ⟨S2x512x1x256, .f32⟩
  | .hbm, ⟨54, _⟩ => ⟨S2x512x512x256, .f32⟩
  | .hbm, ⟨55, _⟩ => ⟨S2x512x512x256, .f32⟩
  | .hbm, ⟨56, _⟩ => ⟨S2x512x512x256, .f32⟩
  | .hbm, ⟨57, _⟩ => ⟨S_, .f32⟩
  | .hbm, ⟨58, _⟩ => ⟨S2x512x512, .f32⟩
  | .hbm, ⟨59, _⟩ => ⟨S2x512x512x1, .f32⟩
  | .hbm, ⟨60, _⟩ => ⟨S_, .f32⟩
  | .hbm, ⟨61, _⟩ => ⟨S2x512x512x1, .f32⟩
  | .hbm, ⟨62, _⟩ => ⟨S2x512x512x1, .f32⟩
  | .hbm, ⟨63, _⟩ => ⟨S2x512x512x1, .f32⟩
  | .hbm, ⟨64, _⟩ => ⟨S2x512x512x256, .f32⟩
  | .hbm, ⟨65, _⟩ => ⟨S2x512x512x256, .f32⟩
  | .hbm, ⟨66, _⟩ => ⟨S2x512x512x256, .f32⟩
  | .hbm, ⟨67, _⟩ => ⟨S2x512x512x256, .f32⟩
  | .hbm, ⟨68, _⟩ => ⟨S_, .f32⟩
  | .hbm, ⟨69, _⟩ => ⟨S2x512x512, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_7 : Ref sig .tc := ⟨.hbm, 68, rfl⟩
abbrev main_v50 : Ref sig .tc := ⟨.hbm, 69, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S2x512x256_0_1_2 : S1x1x256.BroadcastsInDim S2x512x256 (![0, 1, 2] : Fin 3 → Fin S2x512x256.rank)
  reducesTo_S2x512x256_S2x512_d2 : S2x512x256.ReducesTo [2] S2x512
  h_S_ : 0 < S_.numel
  bcast_S2x512_S2x512x1_0_1 : S2x512.BroadcastsInDim S2x512x1 (![0, 1] : Fin 2 → Fin S2x512x1.rank)
  bcast_S_S2x512x1 : S_.BroadcastsInDim S2x512x1 (![] : Fin 0 → Fin S2x512x1.rank)
  bcast_S2x512x1_S2x512x256_0_1_2 : S2x512x1.BroadcastsInDim S2x512x256 (![0, 1, 2] : Fin 3 → Fin S2x512x256.rank)
  bcast_S2x512x256_S2x1x512x256_0_2_3 : S2x512x256.BroadcastsInDim S2x1x512x256 (![0, 2, 3] : Fin 3 → Fin S2x1x512x256.rank)
  bcast_S2x512x256_S2x512x1x256_0_1_3 : S2x512x256.BroadcastsInDim S2x512x1x256 (![0, 1, 3] : Fin 3 → Fin S2x512x1x256.rank)
  bcast_S2x512x1x256_S2x512x512x256_0_1_2_3 : S2x512x1x256.BroadcastsInDim S2x512x512x256 (![0, 1, 2, 3] : Fin 4 → Fin S2x512x512x256.rank)
  reducesTo_S2x512x512x256_S2x512x512_d3 : S2x512x512x256.ReducesTo [3] S2x512x512
  bcast_S2x512x512_S2x512x512x1_0_1_2 : S2x512x512.BroadcastsInDim S2x512x512x1 (![0, 1, 2] : Fin 3 → Fin S2x512x512x1.rank)
  bcast_S_S2x512x512x1 : S_.BroadcastsInDim S2x512x512x1 (![] : Fin 0 → Fin S2x512x512x1.rank)
  bcast_S2x512x512x1_S2x512x512x256_0_1_2_3 : S2x512x512x1.BroadcastsInDim S2x512x512x256 (![0, 1, 2, 3] : Fin 4 → Fin S2x512x512x256.rank)
  bcast_S2x1x512x256_S2x512x512x256_0_1_2_3 : S2x1x512x256.BroadcastsInDim S2x512x512x256 (![0, 1, 2, 3] : Fin 4 → Fin S2x512x512x256.rank)
  dot_S2x512x512_S512x256_S2x512x256_2_0_01_1_n_n_wf : DotDims.WF S2x512x512 S512x256 S2x512x256 [2] [0] [0, 1] [1] [] []

variable [Facts₀]

def dot_S2x512x512_S512x256_S2x512x256_2_0_01_1_n_n : DotDims S2x512x512 S512x256 S2x512x256 where
  lhsContracting := [2]
  rhsContracting := [0]
  lhsNonContracting := [0, 1]
  rhsNonContracting := [1]
  lhsBatch := []
  rhsBatch := []
  wf := dot_S2x512x512_S512x256_S2x512x256_2_0_01_1_n_n_wf

class Facts : Prop extends Facts₀ where

variable [Facts]
-- ==== Proof.BodiesK.lean ====
/-
  The two kernel regions of the program, run: what each region's pipeline leaves in its arrays, and the program's
  run from the launch to the return with every unscoped buffer named at the end.

  Region 0 has two grid points (one per batch): at point t it reads block t of the queries and of the values (512 rows
  of length 512), the two weight matrices and the two bias rows whole, and writes block t of q and of v. Region 1 has
  2 × 16 × 4 points: at point (b, i, j) it reads rows 32 i … 32 i + 31 and rows 128 j … 128 j + 127 of batch b of q — the
  SAME array through two windows, held at two halves of the full share —, the matching [32, 128, 256] block of the
  relative encoding, and writes the [32, 128] block of the scores. Each body loads its input blocks whole, computes,
  and stores each output block whole, so what a point leaves in an output's staging buffer is one function of the
  point's input blocks. Everything is stated at any float instance.
-/
import proofs.«152561_j10161892623130_2_alg».proof.Proof.Gen.Kernel.Launch
import proofs.«152561_j10161892623130_2_alg».proof.Proof.Gen.Kernel.Skeleton
import proofs.«152561_j10161892623130_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered
variable (V : (c : Dev nD) → (b : Ref sig .tc) → Buf (Elt F) ((c : Thread nD τ).loc b))

/-! # Region 0: the two projections, one batch per grid point -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The whole-buffer rectangles the body loads and stores through -/

abbrev rX : Rect S1x512x512 := Rect.unit (s := S1x512x512) ![0, 0, 0] S1x512x512.size inb_S1x512x512_S1x512x512_0_0_0
abbrev rW : Rect S512x256 := Rect.unit (s := S512x256) ![0, 0] S512x256.size inb_S512x256_S512x256_0_0
abbrev rB : Rect S1x256 := Rect.unit (s := S1x256) ![0, 0] S1x256.size inb_S1x256_S1x256_0_0
abbrev rO : Rect S1x512x256 := Rect.unit (s := S1x512x256) ![0, 0, 0] S1x512x256.size inb_S1x512x256_S1x512x256_0_0_0

/-! ## What the body leaves in each output window's buffer -/

/-- The q block after the body: its one whole store, of the projection of the queries block. -/
def out0_6 (x0 : Vec F S1x512x512 .f32) (x2 : Vec F S512x256 .f32) (x3 : Vec F S1x256 .f32) : Vec F S1x512x256 .f32 :=
  View.canon [⟨rO, k0_pay2 (View.ld x0 rX) (View.ld x2 rW) (View.ld x3 rB)⟩]

/-- The v block after the body: its one whole store, of the projection of the values block. -/
def out0_7 (x1 : Vec F S1x512x512 .f32) (x4 : Vec F S512x256 .f32) (x5 : Vec F S1x256 .f32) : Vec F S1x512x256 .f32 :=
  View.canon [⟨rO, k0_pay1 (k0_pay3 (View.ld x1 rX) (View.ld x4 rW) (View.ld x5 rB)) (k0_pay4 (View.ld x1 rX) (View.ld x4 rW) (View.ld x5 rB)) (k0_pay5 (F := F))⟩]

/-- A whole store covers the buffer. -/
theorem cover0 (p0 : Vec F S1x512x256 .f32) (y : S1x512x256.Idx) :
    ∃ pc ∈ ([⟨rO, p0⟩] : List (View.Piece (Elt F) S1x512x256 .f32)), y ∈ pc.1.set :=
  View.cover_of_tiled [⟨rO, p0⟩] S1x512x256.size (by rfl) y

/-! ## The body's triple -/

set_option maxHeartbeats 1000000 in
/-- The body on whole staging memrefs, the inputs' at read contents and the outputs' at anything, runs to the continuation
    holding the inputs' as they were and each output's at its one store's payload. -/
theorem sound_kernel0 (c : Dev nD) (E : Set ℕ) (i : grid0.Coords)
    (arg1 : Memref sig .tc .vmem S1x512x512 .f32) (harg1 : arg1.IsWhole) (arg2 : Memref sig .tc .vmem S1x512x512 .f32) (harg2 : arg2.IsWhole)
    (arg3 : Memref sig .tc .vmem S512x256 .f32) (harg3 : arg3.IsWhole) (arg4 : Memref sig .tc .vmem S1x256 .f32) (harg4 : arg4.IsWhole)
    (arg5 : Memref sig .tc .vmem S512x256 .f32) (harg5 : arg5.IsWhole) (arg6 : Memref sig .tc .vmem S1x256 .f32) (harg6 : arg6.IsWhole)
    (arg7 : Memref sig .tc .vmem S1x512x256 .f32) (harg7 : arg7.IsWhole) (arg8 : Memref sig .tc .vmem S1x512x256 .f32) (harg8 : arg8.IsWhole)
    (x0 : Vec F S1x512x512 .f32) (x1 : Vec F S1x512x512 .f32) (x2 : Vec F S512x256 .f32) (x3 : Vec F S1x256 .f32) (x4 : Vec F S512x256 .f32) (x5 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x2 x3) ∗ owns (c : Thread nD τ) arg8 fullShare (out0_7 x1 x4 x5)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8) K := by
  simp only [cc0__proj_kernel_eq_skeleton]; unfold cc0__proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover0 _)
  iexists _; isplitr
  swap; · iexact H7
  ipureintro
  try dsimp only
  exact View.read_writes_eq_canon _ _ _ (cover0 _)

/-! ## The pipeline's proof data -/

/-- The proof data of region 0 on core `c`: the arrays as the region finds them; after the body at point `t` each input's
    buffer at its block, q's at the projection of the queries block, v's at that of the values block; the scoped rest and
    the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 2 t) (iblk0 V c 3 t)
    | ⟨7, _⟩ => out0_7 (iblk0 V c 1 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 2 t) (iblk0 V c 3 t) := by dsimp only [dat0]
theorem after0_7 (c : Dev nD) (t : Fin cfg0.N) : (dat0 V c).after 7 t = out0_7 (iblk0 V c 1 t) (iblk0 V c 4 t) (iblk0 V c 5 t) := by dsimp only [dat0]

theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d
theorem before0_3 (c : Dev nD) (t : Fin cfg0.N) (d) : (dat0 V c).before 3 t d = iblk0 V c 3 t := before0_3_of V (dat0 V c) (A_eq0 V c 3) (after0_3 V c) t d
theorem before0_4 (c : Dev nD) (t : Fin cfg0.N) (d) : (dat0 V c).before 4 t d = iblk0 V c 4 t := before0_4_of V (dat0 V c) (A_eq0 V c 4) (after0_4 V c) t d
theorem before0_5 (c : Dev nD) (t : Fin cfg0.N) (d) : (dat0 V c).before 5 t d = iblk0 V c 5 t := before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the scores, one [32, 128] block per grid point -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev rQi : Rect S1x32x256 := Rect.unit (s := S1x32x256) ![0, 0, 0] S1x32x256.size inb_S1x32x256_S1x32x256_0_0_0
abbrev rQj : Rect S1x128x256 := Rect.unit (s := S1x128x256) ![0, 0, 0] S1x128x256.size inb_S1x128x256_S1x128x256_0_0_0
abbrev rRel : Rect S1x32x128x256 := Rect.unit (s := S1x32x128x256) ![0, 0, 0, 0] S1x32x128x256.size inb_S1x32x128x256_S1x32x128x256_0_0_0_0
abbrev rS : Rect S1x32x128 := Rect.unit (s := S1x32x128) ![0, 0, 0] S1x32x128.size inb_S1x32x128_S1x32x128_0_0_0

/-- The scores block after the body: its one whole store. -/
def out1_3 (x0 : Vec F S1x32x256 .f32) (x1 : Vec F S1x128x256 .f32) (x2 : Vec F S1x32x128x256 .f32) : Vec F S1x32x128 .f32 :=
  View.canon [⟨rS, k1_pay1 (View.ld x0 rQi) (View.ld x1 rQj) (View.ld x2 rRel)⟩]

/-- A whole store covers the buffer. -/
theorem cover1 (p0 : Vec F S1x32x128 .f32) (y : S1x32x128.Idx) :
    ∃ pc ∈ ([⟨rS, p0⟩] : List (View.Piece (Elt F) S1x32x128 .f32)), y ∈ pc.1.set :=
  View.cover_of_tiled [⟨rS, p0⟩] S1x32x128.size (by rfl) y

set_option maxHeartbeats 1000000 in
/-- The body on whole staging memrefs, the inputs' at read contents and the output's at anything, runs to the continuation
    holding the inputs' as they were and the output's at its one store's payload. -/
theorem sound_kernel1 (c : Dev nD) (E : Set ℕ) (i : grid1.Coords)
    (arg3 : Memref sig .tc .vmem S1x32x256 .f32) (harg3 : arg3.IsWhole) (arg4 : Memref sig .tc .vmem S1x128x256 .f32) (harg4 : arg4.IsWhole)
    (arg5 : Memref sig .tc .vmem S1x32x128x256 .f32) (harg5 : arg5.IsWhole) (arg6 : Memref sig .tc .vmem S1x32x128 .f32) (harg6 : arg6.IsWhole)
    (x0 : Vec F S1x32x256 .f32) (x1 : Vec F S1x128x256 .f32) (x2 : Vec F S1x32x128x256 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1_3 x0 x1 x2)) -∗ K ⟨⟩))
      ⊢ wp frame (wpE (defs₀ (F := F)) Variants.none c none) E (cc1__scores_kernel i arg3 harg3 arg4 harg4 arg5 harg5 arg6 harg6) K := by
  simp only [cc1__scores_kernel_eq_skeleton]; unfold cc1__scores_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1 _)

/-- The proof data of region 1 on core `c`: the arrays as the region finds them; after the body at point `t` each input's
    buffer at its block and the scores' at the payload of the three input blocks; q's array is read through two windows,
    each holding one half of the full share; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Regions

end Cert.Kernel.Run

end
-- ==== Proof.RunK.lean ====
/-
  The program's run from the launch to the return: the buffer contents at each boundary between @main's items, each
  kernel region as a segment entered from the contents before it and left at the contents after it, and the launch.
  Region 1 reads q through two windows: at its entry q's buffer is split into two halves of the full share, one per
  window, and joined again at its exit, q being written by no window of that region.
-/
import proofs.«152561_j10161892623130_2_alg».proof.Proof.BodiesK

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's three items — the two bias reshapes, region 0, region 1 — from the launch to the return -/

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the two reshapes of the bias vectors to rows (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves (the inputs as entered, q and v with every block written
    back), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: the scores' array at what the pipeline leaves, every other buffer — q among them, read
    through two windows and written through none — as entered. -/
def W3 (c : Dev nD) : Valuation τ sig (Elt F) :=
  Function.update (W2 m ρ c) (Proc.devRef .tc main_v3) ((dat1 (V2 m ρ) c).arrAt 3 cfg1.N)
abbrev V3 : (c : Dev nD) → (b : Ref sig .tc) → Buf (Elt F) ((c : Thread nD τ).loc b) := fun c b => W3 m ρ c b

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither reshape allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W3 m ρ c) ∗ ∃ r, prngReg c r)

/-! ## Region 0 as a segment -/

set_option backward.isDefEq.respectTransparency.types false in
/-- Region 0 over the thread state: entered from every unscoped buffer at `W1`, left at `W2`. Its arrays — eight distinct
    buffers — are split out of the unscoped buffers at the entry and put back at the exit contents; the generator
    register goes into the invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 as a segment: q's buffer split between two windows -/

/-- The buffers behind region 1's arrays, one by one: q's, the relative encoding's, the scores'. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v2_0) ↦{fullShare} V main_v2_0) ∗ (((c : Thread nD τ).loc main_arg3) ↦{fullShare} V main_arg3)
          ∗ (((c : Thread nD τ).loc main_v3) ↦{fullShare} V main_v3)) := by
  unfold Pipeline.arrBufs
  rw [bigSep_eq_bigSepL_of_eq [main_v2_0, main_arg3, main_v3] (by decide) (by decide)]
  rfl

/-- Region 1's arrays, window by window: q's buffer at the left half of the full share for the first window and at the
    right half for the second, the relative encoding's and the scores' at the full share. -/
theorem arrays1_eq (V : (c : Dev nD) → (b : Ref sig .tc) → Buf (Elt F) ((c : Thread nD τ).loc b)) (c : Dev nD)
    (Fa : (w : Fin cfg1.W) → Buf (Elt F) ((cfg1.win w).arr.view.loc (c : Thread nD τ))) :
    ((dat1 V c).arrays Fa : sProp 𝕄)
      = iprop((((c : Thread nD τ).loc main_v2_0) ↦{fullShare.left} Fa 0) ∗ (((c : Thread nD τ).loc main_v2_0) ↦{fullShare.right} Fa 1)
          ∗ (((c : Thread nD τ).loc main_arg3) ↦{fullShare} Fa 2) ∗ (((c : Thread nD τ).loc main_v3) ↦{fullShare} Fa 3)) := by
  unfold Dat.arrays
  rw [bigSep_W1, (arr_whole1 0).set_eq_univ, (arr_whole1 2).set_eq_univ, (arr_whole1 3).set_eq_univ]
  rfl

set_option backward.isDefEq.respectTransparency.types false in
/-- Every unscoped buffer at contents `W`, sorted for region 1: q's, the relative encoding's and the scores' buffers, and the rest. -/
theorem held_split1 (c : Dev nD) (W : Valuation τ sig (Elt F)) :
    (StableHlo.held (c : Thread nD τ) (Pipeline.ucRefs τ sig) W : sProp 𝕄)
      = iprop(((((c : Thread nD τ).loc main_v2_0) ↦{fullShare} W (Proc.devRef .tc main_v2_0)) ∗ (((c : Thread nD τ).loc main_arg3) ↦{fullShare} W (Proc.devRef .tc main_arg3))
          ∗ (((c : Thread nD τ).loc main_v3) ↦{fullShare} W (Proc.devRef .tc main_v3)))
        ∗ Pipeline.unscopedRest (Ix := Unit) (Name := ℕ) (U := UR sig nD τ) (Lvl := ℕ) spec1 c (fun b => W (Proc.devRef .tc b))) := by
  rw [← arrBufs1_eq c (fun b => W (Proc.devRef .tc b)), ← Pipeline.unscopedBufs_held (Ix := Unit) (Name := ℕ) (U := UR sig nD τ) (Lvl := ℕ) c W]
  exact Pipeline.unscopedBufs_split₀ (Ix := Unit) (Name := ℕ) (U := UR sig nD τ) (Lvl := ℕ) (Pipeline.pin (pcfgs (F := F)) adm) 1 winFacts₀1.arr_unscoped c (fun b => W (Proc.devRef .tc b))

/-- Region 1 leaves every buffer but the scores' as it found it. -/
theorem W3_of_ne (c : Dev nD) (b : Ref sig .tc) (hb : b ≠ main_v3) : W3 m ρ c (Proc.devRef .tc b) = W2 m ρ c (Proc.devRef .tc b) := by
  unfold W3; exact Function.update_of_ne (StableHlo.devRef_ne_of_ne hb) ..
theorem W3_v3 (c : Dev nD) : W3 m ρ c (Proc.devRef .tc main_v3) = (dat1 (V2 m ρ) c).arrAt 3 cfg1.N := by
  unfold W3; exact Function.update_self ..

set_option backward.isDefEq.respectTransparency.types false in
/-- Region 1 over the thread state: entered from every unscoped buffer at `W2`, left at `W3`. At the entry q's buffer is
    split into the two halves of the full share its two windows hold; at the exit the halves, both still at q's entry
    contents (no window writes q), are joined again. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    rw [held_split1 c (W2 m ρ c), show (pdats m ρ 1 c).arrays ((pdats m ρ 1 c).arrAt · 0) = (dat1 (V2 m ρ) c).arrays ((dat1 (V2 m ρ) c).arrAt · 0) from rfl, arrays1_eq]
    iintro ⟨⟨⟨⟨Hq, Hrel, Hs⟩, Hrest⟩, Hp, HO⟩, -, -⟩
    ihave Hq := (pointsTo_share (PosShare.mem_left_op_right fullShare)).1 $$ Hq
    icases Hq with ⟨Hq₁, Hq₂⟩
    imodintro
    isplitl [Hq₁ Hq₂ Hrel Hs]
    · isplitl [Hq₁]; · iexact Hq₁
      isplitl [Hq₂]; · iexact Hq₂
      isplitl [Hrel]; · iexact Hrel
      iexact Hs
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have h0 : (dat1 (V2 m ρ) c).arrAt 0 cfg1.N = W2 m ρ c (Proc.devRef .tc main_v2_0) :=
      ((dat1 (V2 m ρ) c).arrAt_in 0 rfl cfg1.N).trans (A_eq1 (V2 m ρ) c 0)
    have h1 : (dat1 (V2 m ρ) c).arrAt 1 cfg1.N = W2 m ρ c (Proc.devRef .tc main_v2_0) :=
      ((dat1 (V2 m ρ) c).arrAt_in 1 rfl cfg1.N).trans (A_eq1 (V2 m ρ) c 1)
    have h2 : (dat1 (V2 m ρ) c).arrAt 2 cfg1.N = W2 m ρ c (Proc.devRef .tc main_arg3) :=
      ((dat1 (V2 m ρ) c).arrAt_in 2 rfl cfg1.N).trans (A_eq1 (V2 m ρ) c 2)
    have hrest : (Pipeline.unscopedRest (Ix := Unit) (Name := ℕ) (U := UR sig nD τ) (Lvl := ℕ) spec1 c (V3 m ρ c) : sProp 𝕄)
        = Pipeline.unscopedRest spec1 c (V2 m ρ c) := by
      unfold Pipeline.unscopedRest
      exact bigSep_congr fun b hb => by
        rw [show V3 m ρ c b = V2 m ρ c b from W3_of_ne m ρ c b fun e => (Finset.mem_sdiff.mp hb).2 (Finset.mem_image.mpr ⟨3, Finset.mem_univ _, e.symm⟩)]
    rw [show Tₙ m ρ c = iprop(StableHlo.held (c : Thread nD τ) (Pipeline.ucRefs τ sig) (W3 m ρ c) ∗ ∃ r, prngReg c r) from rfl, held_split1 c (W3 m ρ c), hrest,
      W3_of_ne m ρ c main_v2_0 (by decide), W3_of_ne m ρ c main_arg3 (by decide), W3_v3 m ρ c,
      show (pdats m ρ 1 c).arrays ((pdats m ρ 1 c).arrAt · (Pipeline.pin (pcfgs (F := F)) adm 1).N) = (dat1 (V2 m ρ) c).arrays (fun w => (dat1 (V2 m ρ) c).arrAt w cfg1.N) from rfl, arrays1_eq]
    dsimp only
    rw [h0, h1, h2]
    iintro ⟨⟨Hq₁, Hq₂, Hrel, Hs⟩, HO, HY, Hrest⟩
    ihave Hq := (pointsTo_share (PosShare.mem_left_op_right fullShare)).2 $$ [Hq₁ Hq₂]
    · isplitl [Hq₁] <;> iassumption
    imodintro
    isplitl [Hq Hrel Hs Hrest HY]
    · isplitl [Hq Hrel Hs Hrest]
      · isplitl [Hq Hrel Hs]
        · isplitl [Hq]; · iexact Hq
          isplitl [Hrel]; · iexact Hrel
          iexact Hs
        iexact Hrest
      iexact HY
    unfold Pipeline.Dat.owesAt Pipeline.owesWithin
    icases HO with ⟨%W, -, HO⟩; iexists W; iexact HO

/-! ## @main as segments, and the launch -/

/-- @main's three segments in order: the reshapes from the launch contents, then the two regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main is the run of the segments. -/
theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates,
    nothing faulting, and in every final state each unscoped buffer holds the last boundary's contents `W3`: the
    arguments as launched, q and v as region 0's write-backs leave them, the scores as region 1's do. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.Kernel.Run

end
-- ==== Proof.ArgsK.lean ====
/-
  The arguments end as launched.

  No host operation and no region writes an argument: the two reshapes write the two bias rows; region 0 writes q and v
  and reads four of the arguments through input windows, and an input window's array is left as it was entered; region 1
  writes the scores. So the contents at the last boundary, read at an argument's buffer, walk back boundary by boundary
  to the launch memory, and a final memory that agrees with the last boundary on every unscoped buffer holds every
  argument as launched. Everything is stated at any float instance.
-/
import proofs.«152561_j10161892623130_2_alg».proof.Proof.RunK

noncomputable section

namespace Cert.Kernel.Run

open Cert.Kernel Cert.Kernel.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- A buffer that is neither bias row is, after the two reshapes, as launched. -/
theorem W1_of_ne (c : Dev nD) (b : Ref sig .tc) (h0 : b ≠ main_v0) (h1 : b ≠ main_v1) :
    W1 m ρ c (Proc.devRef .tc b) = m ((c : Thread nD τ).loc b) :=
  (StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))).trans rfl

/-! Each argument's buffer at the last boundary: back through region 1 (which writes the scores only), through region 0
    (an input window's array, or no window's), through the two reshapes, to the launch memory. -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := W1_of_ne m ρ c main_arg0 (by decide) (by decide)

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = m ((c : Thread nD τ).loc main_arg1) := W1_of_ne m ρ c main_arg1 (by decide) (by decide)

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 1).trans (((dat0 (V1 m ρ) c).arrAt_in 1 rfl _).trans (A_eq0 (V1 m ρ) c 1))
    _ = m ((c : Thread nD τ).loc main_arg2) := W1_of_ne m ρ c main_arg2 (by decide) (by decide)

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = m ((c : Thread nD τ).loc main_arg3) := W1_of_ne m ρ c main_arg3 (by decide) (by decide)

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 2).trans (((dat0 (V1 m ρ) c).arrAt_in 2 rfl _).trans (A_eq0 (V1 m ρ) c 2))
    _ = m ((c : Thread nD τ).loc main_arg4) := W1_of_ne m ρ c main_arg4 (by decide) (by decide)

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = m ((c : Thread nD τ).loc main_arg5) := W1_of_ne m ρ c main_arg5 (by decide) (by decide)

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = m ((c : Thread nD τ).loc main_arg6) := W1_of_ne m ρ c main_arg6 (by decide) (by decide)

theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_of_ne m ρ c main_arg7 (by decide)
    _ = m ((c : Thread nD τ).loc main_arg7) := W1_of_ne m ρ c main_arg7 (by decide) (by decide)

theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := (W2_arr m ρ c 4).trans (((dat0 (V1 m ρ) c).arrAt_in 4 rfl _).trans (A_eq0 (V1 m ρ) c 4))
    _ = m ((c : Thread nD τ).loc main_arg8) := W1_of_ne m ρ c main_arg8 (by decide) (by decide)

theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := W2_of_ne m ρ c main_arg9 (by decide)
    _ = m ((c : Thread nD τ).loc main_arg9) := W1_of_ne m ρ c main_arg9 (by decide) (by decide)

/-- The final memory, equal to the last boundary's contents at every unscoped buffer, holds every argument as launched. -/
theorem frame_post (r : PUnit × MemSt nD τ sig (Elt F))
    (h : ∀ c : Dev nD, ∀ b ∈ Pipeline.ucRefs τ sig, r.2.mem (((c : Thread nD τ)).1, b) = W3 m ρ c b) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9) :=
  ⟨(h c _ (mem_uc main_arg0 (by decide))).trans (W3_main_arg0 m ρ c),
   (h c _ (mem_uc main_arg1 (by decide))).trans (W3_main_arg1 m ρ c),
   (h c _ (mem_uc main_arg2 (by decide))).trans (W3_main_arg2 m ρ c),
   (h c _ (mem_uc main_arg3 (by decide))).trans (W3_main_arg3 m ρ c),
   (h c _ (mem_uc main_arg4 (by decide))).trans (W3_main_arg4 m ρ c),
   (h c _ (mem_uc main_arg5 (by decide))).trans (W3_main_arg5 m ρ c),
   (h c _ (mem_uc main_arg6 (by decide))).trans (W3_main_arg6 m ρ c),
   (h c _ (mem_uc main_arg7 (by decide))).trans (W3_main_arg7 m ρ c),
   (h c _ (mem_uc main_arg8 (by decide))).trans (W3_main_arg8 m ρ c),
   (h c _ (mem_uc main_arg9 (by decide))).trans (W3_main_arg9 m ρ c)⟩

end Cert.Kernel.Run

end
-- ==== Proof.BodiesKI.lean ====
/-
  The two kernel regions of the program, run: what each region's pipeline leaves in its arrays, and the program's
  run from the launch to the return with every unscoped buffer named at the end.

  Region 0 has two grid points (one per batch): at point t it reads block t of the queries and of the values (512 rows
  of length 512), the two weight matrices and the two bias rows whole, and writes block t of q and of v. Region 1 has
  2 × 16 × 4 points: at point (b, i, j) it reads rows 32 i … 32 i + 31 and rows 128 j … 128 j + 127 of batch b of q — the
  SAME array through two windows, held at two halves of the full share —, the matching [32, 128, 256] block of the
  relative encoding, and writes the [32, 128] block of the scores. Each body loads its input blocks whole, computes,
  and stores each output block whole, so what a point leaves in an output's staging buffer is one function of the
  point's input blocks. Everything is stated at any float instance.
-/
import proofs.«152561_j10161892623130_2_alg».proof.Proof.Gen.KernelIdeal.Launch
import proofs.«152561_j10161892623130_2_alg».proof.Proof.Gen.KernelIdeal.Skeleton
import proofs.«152561_j10161892623130_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered
variable (V : (c : Dev nD) → (b : Ref sig .tc) → Buf (Elt F) ((c : Thread nD τ).loc b))

/-! # Region 0: the two projections, one batch per grid point -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The whole-buffer rectangles the body loads and stores through -/

abbrev rX : Rect S1x512x512 := Rect.unit (s := S1x512x512) ![0, 0, 0] S1x512x512.size inb_S1x512x512_S1x512x512_0_0_0
abbrev rW : Rect S512x256 := Rect.unit (s := S512x256) ![0, 0] S512x256.size inb_S512x256_S512x256_0_0
abbrev rB : Rect S1x256 := Rect.unit (s := S1x256) ![0, 0] S1x256.size inb_S1x256_S1x256_0_0
abbrev rO : Rect S1x512x256 := Rect.unit (s := S1x512x256) ![0, 0, 0] S1x512x256.size inb_S1x512x256_S1x512x256_0_0_0

/-! ## What the body leaves in each output window's buffer -/

/-- The q block after the body: its one whole store, of the projection of the queries block. -/
def out0_6 (x0 : Vec F S1x512x512 .f32) (x2 : Vec F S512x256 .f32) (x3 : Vec F S1x256 .f32) : Vec F S1x512x256 .f32 :=
  View.canon [⟨rO, k0_pay2 (View.ld x0 rX) (View.ld x2 rW) (View.ld x3 rB)⟩]

/-- The v block after the body: its one whole store, of the projection of the values block. -/
def out0_7 (x1 : Vec F S1x512x512 .f32) (x4 : Vec F S512x256 .f32) (x5 : Vec F S1x256 .f32) : Vec F S1x512x256 .f32 :=
  View.canon [⟨rO, k0_pay1 (k0_pay3 (View.ld x1 rX) (View.ld x4 rW) (View.ld x5 rB)) (k0_pay4 (View.ld x1 rX) (View.ld x4 rW) (View.ld x5 rB)) (k0_pay5 (F := F))⟩]

/-- A whole store covers the buffer. -/
theorem cover0 (p0 : Vec F S1x512x256 .f32) (y : S1x512x256.Idx) :
    ∃ pc ∈ ([⟨rO, p0⟩] : List (View.Piece (Elt F) S1x512x256 .f32)), y ∈ pc.1.set :=
  View.cover_of_tiled [⟨rO, p0⟩] S1x512x256.size (by rfl) y

/-! ## The body's triple -/

set_option maxHeartbeats 1000000 in
/-- The body on whole staging memrefs, the inputs' at read contents and the outputs' at anything, runs to the continuation
    holding the inputs' as they were and each output's at its one store's payload. -/
theorem sound_kernel0 (c : Dev nD) (E : Set ℕ) (i : grid0.Coords)
    (arg1 : Memref sig .tc .vmem S1x512x512 .f32) (harg1 : arg1.IsWhole) (arg2 : Memref sig .tc .vmem S1x512x512 .f32) (harg2 : arg2.IsWhole)
    (arg3 : Memref sig .tc .vmem S512x256 .f32) (harg3 : arg3.IsWhole) (arg4 : Memref sig .tc .vmem S1x256 .f32) (harg4 : arg4.IsWhole)
    (arg5 : Memref sig .tc .vmem S512x256 .f32) (harg5 : arg5.IsWhole) (arg6 : Memref sig .tc .vmem S1x256 .f32) (harg6 : arg6.IsWhole)
    (arg7 : Memref sig .tc .vmem S1x512x256 .f32) (harg7 : arg7.IsWhole) (arg8 : Memref sig .tc .vmem S1x512x256 .f32) (harg8 : arg8.IsWhole)
    (x0 : Vec F S1x512x512 .f32) (x1 : Vec F S1x512x512 .f32) (x2 : Vec F S512x256 .f32) (x3 : Vec F S1x256 .f32) (x4 : Vec F S512x256 .f32) (x5 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x2 x3) ∗ owns (c : Thread nD τ) arg8 fullShare (out0_7 x1 x4 x5)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8) K := by
  simp only [cc0__proj_kernel_eq_skeleton]; unfold cc0__proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover0 _)
  iexists _; isplitr
  swap; · iexact H7
  ipureintro
  try dsimp only
  exact View.read_writes_eq_canon _ _ _ (cover0 _)

/-! ## The pipeline's proof data -/

/-- The proof data of region 0 on core `c`: the arrays as the region finds them; after the body at point `t` each input's
    buffer at its block, q's at the projection of the queries block, v's at that of the values block; the scoped rest and
    the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 2 t) (iblk0 V c 3 t)
    | ⟨7, _⟩ => out0_7 (iblk0 V c 1 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 2 t) (iblk0 V c 3 t) := by dsimp only [dat0]
theorem after0_7 (c : Dev nD) (t : Fin cfg0.N) : (dat0 V c).after 7 t = out0_7 (iblk0 V c 1 t) (iblk0 V c 4 t) (iblk0 V c 5 t) := by dsimp only [dat0]

theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d
theorem before0_3 (c : Dev nD) (t : Fin cfg0.N) (d) : (dat0 V c).before 3 t d = iblk0 V c 3 t := before0_3_of V (dat0 V c) (A_eq0 V c 3) (after0_3 V c) t d
theorem before0_4 (c : Dev nD) (t : Fin cfg0.N) (d) : (dat0 V c).before 4 t d = iblk0 V c 4 t := before0_4_of V (dat0 V c) (A_eq0 V c 4) (after0_4 V c) t d
theorem before0_5 (c : Dev nD) (t : Fin cfg0.N) (d) : (dat0 V c).before 5 t d = iblk0 V c 5 t := before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the scores, one [32, 128] block per grid point -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev rQi : Rect S1x32x256 := Rect.unit (s := S1x32x256) ![0, 0, 0] S1x32x256.size inb_S1x32x256_S1x32x256_0_0_0
abbrev rQj : Rect S1x128x256 := Rect.unit (s := S1x128x256) ![0, 0, 0] S1x128x256.size inb_S1x128x256_S1x128x256_0_0_0
abbrev rRel : Rect S1x32x128x256 := Rect.unit (s := S1x32x128x256) ![0, 0, 0, 0] S1x32x128x256.size inb_S1x32x128x256_S1x32x128x256_0_0_0_0
abbrev rS : Rect S1x32x128 := Rect.unit (s := S1x32x128) ![0, 0, 0] S1x32x128.size inb_S1x32x128_S1x32x128_0_0_0

/-- The scores block after the body: its one whole store. -/
def out1_3 (x0 : Vec F S1x32x256 .f32) (x1 : Vec F S1x128x256 .f32) (x2 : Vec F S1x32x128x256 .f32) : Vec F S1x32x128 .f32 :=
  View.canon [⟨rS, k1_pay1 (View.ld x0 rQi) (View.ld x1 rQj) (View.ld x2 rRel)⟩]

/-- A whole store covers the buffer. -/
theorem cover1 (p0 : Vec F S1x32x128 .f32) (y : S1x32x128.Idx) :
    ∃ pc ∈ ([⟨rS, p0⟩] : List (View.Piece (Elt F) S1x32x128 .f32)), y ∈ pc.1.set :=
  View.cover_of_tiled [⟨rS, p0⟩] S1x32x128.size (by rfl) y

set_option maxHeartbeats 1000000 in
/-- The body on whole staging memrefs, the inputs' at read contents and the output's at anything, runs to the continuation
    holding the inputs' as they were and the output's at its one store's payload. -/
theorem sound_kernel1 (c : Dev nD) (E : Set ℕ) (i : grid1.Coords)
    (arg3 : Memref sig .tc .vmem S1x32x256 .f32) (harg3 : arg3.IsWhole) (arg4 : Memref sig .tc .vmem S1x128x256 .f32) (harg4 : arg4.IsWhole)
    (arg5 : Memref sig .tc .vmem S1x32x128x256 .f32) (harg5 : arg5.IsWhole) (arg6 : Memref sig .tc .vmem S1x32x128 .f32) (harg6 : arg6.IsWhole)
    (x0 : Vec F S1x32x256 .f32) (x1 : Vec F S1x128x256 .f32) (x2 : Vec F S1x32x128x256 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1_3 x0 x1 x2)) -∗ K ⟨⟩))
      ⊢ wp frame (wpE (defs₀ (F := F)) Variants.none c none) E (cc1__scores_kernel i arg3 harg3 arg4 harg4 arg5 harg5 arg6 harg6) K := by
  simp only [cc1__scores_kernel_eq_skeleton]; unfold cc1__scores_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1 _)

/-- The proof data of region 1 on core `c`: the arrays as the region finds them; after the body at point `t` each input's
    buffer at its block and the scores' at the payload of the three input blocks; q's array is read through two windows,
    each holding one half of the full share; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Regions

end Cert.KernelIdeal.Run

end
-- ==== Proof.RunKI.lean ====
/-
  The program's run from the launch to the return: the buffer contents at each boundary between @main's items, each
  kernel region as a segment entered from the contents before it and left at the contents after it, and the launch.
  Region 1 reads q through two windows: at its entry q's buffer is split into two halves of the full share, one per
  window, and joined again at its exit, q being written by no window of that region.
-/
import proofs.«152561_j10161892623130_2_alg».proof.Proof.BodiesKI

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's three items — the two bias reshapes, region 0, region 1 — from the launch to the return -/

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the two reshapes of the bias vectors to rows (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves (the inputs as entered, q and v with every block written
    back), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: the scores' array at what the pipeline leaves, every other buffer — q among them, read
    through two windows and written through none — as entered. -/
def W3 (c : Dev nD) : Valuation τ sig (Elt F) :=
  Function.update (W2 m ρ c) (Proc.devRef .tc main_v3) ((dat1 (V2 m ρ) c).arrAt 3 cfg1.N)
abbrev V3 : (c : Dev nD) → (b : Ref sig .tc) → Buf (Elt F) ((c : Thread nD τ).loc b) := fun c b => W3 m ρ c b

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither reshape allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W3 m ρ c) ∗ ∃ r, prngReg c r)

/-! ## Region 0 as a segment -/

set_option backward.isDefEq.respectTransparency.types false in
/-- Region 0 over the thread state: entered from every unscoped buffer at `W1`, left at `W2`. Its arrays — eight distinct
    buffers — are split out of the unscoped buffers at the entry and put back at the exit contents; the generator
    register goes into the invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 as a segment: q's buffer split between two windows -/

/-- The buffers behind region 1's arrays, one by one: q's, the relative encoding's, the scores'. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v2_0) ↦{fullShare} V main_v2_0) ∗ (((c : Thread nD τ).loc main_arg3) ↦{fullShare} V main_arg3)
          ∗ (((c : Thread nD τ).loc main_v3) ↦{fullShare} V main_v3)) := by
  unfold Pipeline.arrBufs
  rw [bigSep_eq_bigSepL_of_eq [main_v2_0, main_arg3, main_v3] (by decide) (by decide)]
  rfl

/-- Region 1's arrays, window by window: q's buffer at the left half of the full share for the first window and at the
    right half for the second, the relative encoding's and the scores' at the full share. -/
theorem arrays1_eq (V : (c : Dev nD) → (b : Ref sig .tc) → Buf (Elt F) ((c : Thread nD τ).loc b)) (c : Dev nD)
    (Fa : (w : Fin cfg1.W) → Buf (Elt F) ((cfg1.win w).arr.view.loc (c : Thread nD τ))) :
    ((dat1 V c).arrays Fa : sProp 𝕄)
      = iprop((((c : Thread nD τ).loc main_v2_0) ↦{fullShare.left} Fa 0) ∗ (((c : Thread nD τ).loc main_v2_0) ↦{fullShare.right} Fa 1)
          ∗ (((c : Thread nD τ).loc main_arg3) ↦{fullShare} Fa 2) ∗ (((c : Thread nD τ).loc main_v3) ↦{fullShare} Fa 3)) := by
  unfold Dat.arrays
  rw [bigSep_W1, (arr_whole1 0).set_eq_univ, (arr_whole1 2).set_eq_univ, (arr_whole1 3).set_eq_univ]
  rfl

set_option backward.isDefEq.respectTransparency.types false in
/-- Every unscoped buffer at contents `W`, sorted for region 1: q's, the relative encoding's and the scores' buffers, and the rest. -/
theorem held_split1 (c : Dev nD) (W : Valuation τ sig (Elt F)) :
    (StableHlo.held (c : Thread nD τ) (Pipeline.ucRefs τ sig) W : sProp 𝕄)
      = iprop(((((c : Thread nD τ).loc main_v2_0) ↦{fullShare} W (Proc.devRef .tc main_v2_0)) ∗ (((c : Thread nD τ).loc main_arg3) ↦{fullShare} W (Proc.devRef .tc main_arg3))
          ∗ (((c : Thread nD τ).loc main_v3) ↦{fullShare} W (Proc.devRef .tc main_v3)))
        ∗ Pipeline.unscopedRest (Ix := Unit) (Name := ℕ) (U := UR sig nD τ) (Lvl := ℕ) spec1 c (fun b => W (Proc.devRef .tc b))) := by
  rw [← arrBufs1_eq c (fun b => W (Proc.devRef .tc b)), ← Pipeline.unscopedBufs_held (Ix := Unit) (Name := ℕ) (U := UR sig nD τ) (Lvl := ℕ) c W]
  exact Pipeline.unscopedBufs_split₀ (Ix := Unit) (Name := ℕ) (U := UR sig nD τ) (Lvl := ℕ) (Pipeline.pin (pcfgs (F := F)) adm) 1 winFacts₀1.arr_unscoped c (fun b => W (Proc.devRef .tc b))

/-- Region 1 leaves every buffer but the scores' as it found it. -/
theorem W3_of_ne (c : Dev nD) (b : Ref sig .tc) (hb : b ≠ main_v3) : W3 m ρ c (Proc.devRef .tc b) = W2 m ρ c (Proc.devRef .tc b) := by
  unfold W3; exact Function.update_of_ne (StableHlo.devRef_ne_of_ne hb) ..
theorem W3_v3 (c : Dev nD) : W3 m ρ c (Proc.devRef .tc main_v3) = (dat1 (V2 m ρ) c).arrAt 3 cfg1.N := by
  unfold W3; exact Function.update_self ..

set_option backward.isDefEq.respectTransparency.types false in
/-- Region 1 over the thread state: entered from every unscoped buffer at `W2`, left at `W3`. At the entry q's buffer is
    split into the two halves of the full share its two windows hold; at the exit the halves, both still at q's entry
    contents (no window writes q), are joined again. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    rw [held_split1 c (W2 m ρ c), show (pdats m ρ 1 c).arrays ((pdats m ρ 1 c).arrAt · 0) = (dat1 (V2 m ρ) c).arrays ((dat1 (V2 m ρ) c).arrAt · 0) from rfl, arrays1_eq]
    iintro ⟨⟨⟨⟨Hq, Hrel, Hs⟩, Hrest⟩, Hp, HO⟩, -, -⟩
    ihave Hq := (pointsTo_share (PosShare.mem_left_op_right fullShare)).1 $$ Hq
    icases Hq with ⟨Hq₁, Hq₂⟩
    imodintro
    isplitl [Hq₁ Hq₂ Hrel Hs]
    · isplitl [Hq₁]; · iexact Hq₁
      isplitl [Hq₂]; · iexact Hq₂
      isplitl [Hrel]; · iexact Hrel
      iexact Hs
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have h0 : (dat1 (V2 m ρ) c).arrAt 0 cfg1.N = W2 m ρ c (Proc.devRef .tc main_v2_0) :=
      ((dat1 (V2 m ρ) c).arrAt_in 0 rfl cfg1.N).trans (A_eq1 (V2 m ρ) c 0)
    have h1 : (dat1 (V2 m ρ) c).arrAt 1 cfg1.N = W2 m ρ c (Proc.devRef .tc main_v2_0) :=
      ((dat1 (V2 m ρ) c).arrAt_in 1 rfl cfg1.N).trans (A_eq1 (V2 m ρ) c 1)
    have h2 : (dat1 (V2 m ρ) c).arrAt 2 cfg1.N = W2 m ρ c (Proc.devRef .tc main_arg3) :=
      ((dat1 (V2 m ρ) c).arrAt_in 2 rfl cfg1.N).trans (A_eq1 (V2 m ρ) c 2)
    have hrest : (Pipeline.unscopedRest (Ix := Unit) (Name := ℕ) (U := UR sig nD τ) (Lvl := ℕ) spec1 c (V3 m ρ c) : sProp 𝕄)
        = Pipeline.unscopedRest spec1 c (V2 m ρ c) := by
      unfold Pipeline.unscopedRest
      exact bigSep_congr fun b hb => by
        rw [show V3 m ρ c b = V2 m ρ c b from W3_of_ne m ρ c b fun e => (Finset.mem_sdiff.mp hb).2 (Finset.mem_image.mpr ⟨3, Finset.mem_univ _, e.symm⟩)]
    rw [show Tₙ m ρ c = iprop(StableHlo.held (c : Thread nD τ) (Pipeline.ucRefs τ sig) (W3 m ρ c) ∗ ∃ r, prngReg c r) from rfl, held_split1 c (W3 m ρ c), hrest,
      W3_of_ne m ρ c main_v2_0 (by decide), W3_of_ne m ρ c main_arg3 (by decide), W3_v3 m ρ c,
      show (pdats m ρ 1 c).arrays ((pdats m ρ 1 c).arrAt · (Pipeline.pin (pcfgs (F := F)) adm 1).N) = (dat1 (V2 m ρ) c).arrays (fun w => (dat1 (V2 m ρ) c).arrAt w cfg1.N) from rfl, arrays1_eq]
    dsimp only
    rw [h0, h1, h2]
    iintro ⟨⟨Hq₁, Hq₂, Hrel, Hs⟩, HO, HY, Hrest⟩
    ihave Hq := (pointsTo_share (PosShare.mem_left_op_right fullShare)).2 $$ [Hq₁ Hq₂]
    · isplitl [Hq₁] <;> iassumption
    imodintro
    isplitl [Hq Hrel Hs Hrest HY]
    · isplitl [Hq Hrel Hs Hrest]
      · isplitl [Hq Hrel Hs]
        · isplitl [Hq]; · iexact Hq
          isplitl [Hrel]; · iexact Hrel
          iexact Hs
        iexact Hrest
      iexact HY
    unfold Pipeline.Dat.owesAt Pipeline.owesWithin
    icases HO with ⟨%W, -, HO⟩; iexists W; iexact HO

/-! ## @main as segments, and the launch -/

/-- @main's three segments in order: the reshapes from the launch contents, then the two regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main is the run of the segments. -/
theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates,
    nothing faulting, and in every final state each unscoped buffer holds the last boundary's contents `W3`: the
    arguments as launched, q and v as region 0's write-backs leave them, the scores as region 1's do. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Run

end
-- ==== Proof.ArgsKI.lean ====
/-
  The arguments end as launched.

  No host operation and no region writes an argument: the two reshapes write the two bias rows; region 0 writes q and v
  and reads four of the arguments through input windows, and an input window's array is left as it was entered; region 1
  writes the scores. So the contents at the last boundary, read at an argument's buffer, walk back boundary by boundary
  to the launch memory, and a final memory that agrees with the last boundary on every unscoped buffer holds every
  argument as launched. Everything is stated at any float instance.
-/
import proofs.«152561_j10161892623130_2_alg».proof.Proof.RunKI

noncomputable section

namespace Cert.KernelIdeal.Run

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- A buffer that is neither bias row is, after the two reshapes, as launched. -/
theorem W1_of_ne (c : Dev nD) (b : Ref sig .tc) (h0 : b ≠ main_v0) (h1 : b ≠ main_v1) :
    W1 m ρ c (Proc.devRef .tc b) = m ((c : Thread nD τ).loc b) :=
  (StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))).trans rfl

/-! Each argument's buffer at the last boundary: back through region 1 (which writes the scores only), through region 0
    (an input window's array, or no window's), through the two reshapes, to the launch memory. -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := W1_of_ne m ρ c main_arg0 (by decide) (by decide)

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = m ((c : Thread nD τ).loc main_arg1) := W1_of_ne m ρ c main_arg1 (by decide) (by decide)

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 1).trans (((dat0 (V1 m ρ) c).arrAt_in 1 rfl _).trans (A_eq0 (V1 m ρ) c 1))
    _ = m ((c : Thread nD τ).loc main_arg2) := W1_of_ne m ρ c main_arg2 (by decide) (by decide)

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = m ((c : Thread nD τ).loc main_arg3) := W1_of_ne m ρ c main_arg3 (by decide) (by decide)

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 2).trans (((dat0 (V1 m ρ) c).arrAt_in 2 rfl _).trans (A_eq0 (V1 m ρ) c 2))
    _ = m ((c : Thread nD τ).loc main_arg4) := W1_of_ne m ρ c main_arg4 (by decide) (by decide)

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = m ((c : Thread nD τ).loc main_arg5) := W1_of_ne m ρ c main_arg5 (by decide) (by decide)

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = m ((c : Thread nD τ).loc main_arg6) := W1_of_ne m ρ c main_arg6 (by decide) (by decide)

theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_of_ne m ρ c main_arg7 (by decide)
    _ = m ((c : Thread nD τ).loc main_arg7) := W1_of_ne m ρ c main_arg7 (by decide) (by decide)

theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := (W2_arr m ρ c 4).trans (((dat0 (V1 m ρ) c).arrAt_in 4 rfl _).trans (A_eq0 (V1 m ρ) c 4))
    _ = m ((c : Thread nD τ).loc main_arg8) := W1_of_ne m ρ c main_arg8 (by decide) (by decide)

theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := W2_of_ne m ρ c main_arg9 (by decide)
    _ = m ((c : Thread nD τ).loc main_arg9) := W1_of_ne m ρ c main_arg9 (by decide) (by decide)

/-- The final memory, equal to the last boundary's contents at every unscoped buffer, holds every argument as launched. -/
theorem frame_post (r : PUnit × MemSt nD τ sig (Elt F))
    (h : ∀ c : Dev nD, ∀ b ∈ Pipeline.ucRefs τ sig, r.2.mem (((c : Thread nD τ)).1, b) = W3 m ρ c b) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9) :=
  ⟨(h c _ (mem_uc main_arg0 (by decide))).trans (W3_main_arg0 m ρ c),
   (h c _ (mem_uc main_arg1 (by decide))).trans (W3_main_arg1 m ρ c),
   (h c _ (mem_uc main_arg2 (by decide))).trans (W3_main_arg2 m ρ c),
   (h c _ (mem_uc main_arg3 (by decide))).trans (W3_main_arg3 m ρ c),
   (h c _ (mem_uc main_arg4 (by decide))).trans (W3_main_arg4 m ρ c),
   (h c _ (mem_uc main_arg5 (by decide))).trans (W3_main_arg5 m ρ c),
   (h c _ (mem_uc main_arg6 (by decide))).trans (W3_main_arg6 m ρ c),
   (h c _ (mem_uc main_arg7 (by decide))).trans (W3_main_arg7 m ρ c),
   (h c _ (mem_uc main_arg8 (by decide))).trans (W3_main_arg8 m ρ c),
   (h c _ (mem_uc main_arg9 (by decide))).trans (W3_main_arg9 m ρ c)⟩

end Cert.KernelIdeal.Run

end
-- ==== Proof.Spec.lean ====
/-
  The mathematics both programs compute, on the extended reals, with no program in sight.

  A row `p` of length n is scaled to unit length with its squared norm floored:
  `unit p e = p e · rsqrt (max (Σ_d p d · p d) floor)`, `floor` the binary32 number nearest 1e-12 (one word, the same
  in both programs, never evaluated). A dense projection of a row `x` of length 512 is `dense x W b e = Σ_k x k · W k e + b e`.
  The three results are
    q = proj queries Wq bq      (each of the 2 × 512 rows projected, then scaled to unit length),
    v = proj values  Wv bv,
    scores (b, i, j) = Σ_d unit (q (b, i, ·) + rel (b, i, j, ·)) d · q (b, j, d):
  the row i of q shifted by the relative encoding of the pair (i, j), scaled to unit length, against row j of q.
-/
import Idealize.ShloMosaic.PureOps.Ideal
import Idealize.ShloMosaic.Lib.ValueIdx

noncomputable section

open scoped BigOperators

namespace Cert.RelAttn

open Idealize.ShloMosaic Idealize.ShloMosaic.ValueIdx

/-- The floor under a squared norm: the binary32 number nearest 1e-12. -/
abbrev floorSq : EReal := Ideal.ofBits .f32 0x2B8CBCCC#32

/-- A row scaled to unit length, its squared norm floored. -/
def unit {n : Nat} (p : Fin n → EReal) (e : Fin n) : EReal :=
  p e * Ideal.rsqrt (max (∑ d : Fin n, p d * p d) floorSq)

/-- One row of a dense projection: `x · W + b` at column `e`. -/
def dense (x : Fin 512 → EReal) (W : Fin 512 → Fin 256 → EReal) (b : Fin 256 → EReal) (e : Fin 256) : EReal :=
  (∑ k : Fin 512, x k * W k e) + b e

/-- The normalised projection at coordinates: row `(bb, l)` of `x` projected by `W`, `b` and scaled to unit length. -/
def projAt (x : FVec Ideal (⟨3, ![2, 512, 512]⟩ : Shape) .f32) (W : FVec Ideal (⟨2, ![512, 256]⟩ : Shape) .f32)
    (b : FVec Ideal (⟨1, ![256]⟩ : Shape) .f32) (bb : Fin 2) (l : Fin 512) (e : Fin 256) : EReal :=
  unit (dense (fun k => x (ix3 bb l k)) (fun k e' => W (ix2 k e')) (fun e' => b (ix1 e'))) e

/-- The normalised projection as an array. -/
def proj (x : FVec Ideal (⟨3, ![2, 512, 512]⟩ : Shape) .f32) (W : FVec Ideal (⟨2, ![512, 256]⟩ : Shape) .f32)
    (b : FVec Ideal (⟨1, ![256]⟩ : Shape) .f32) : FVec Ideal (⟨3, ![2, 512, 256]⟩ : Shape) .f32 :=
  fun i => projAt x W b (i 0) (i 1) (i 2)

theorem proj_ix3 (x : FVec Ideal (⟨3, ![2, 512, 512]⟩ : Shape) .f32) (W : FVec Ideal (⟨2, ![512, 256]⟩ : Shape) .f32)
    (b : FVec Ideal (⟨1, ![256]⟩ : Shape) .f32) (bb : Fin 2) (l : Fin 512) (e : Fin 256) :
    proj x W b (ix3 bb l e) = projAt x W b bb l e := rfl

/-- The score of the pair `(i, j)` in batch `bb`: row `i` of `q` shifted by the pair's relative encoding and scaled to
    unit length, against row `j` of `q`. -/
def scoreAt (q : FVec Ideal (⟨3, ![2, 512, 256]⟩ : Shape) .f32) (rel : FVec Ideal (⟨4, ![2, 512, 512, 256]⟩ : Shape) .f32)
    (bb : Fin 2) (i j : Fin 512) : EReal :=
  ∑ d : Fin 256, unit (fun d' => q (ix3 bb i d') + rel (ix4 bb i j d')) d * q (ix3 bb j d)

/-- The scores as an array. -/
def scores (q : FVec Ideal (⟨3, ![2, 512, 256]⟩ : Shape) .f32) (rel : FVec Ideal (⟨4, ![2, 512, 512, 256]⟩ : Shape) .f32) :
    FVec Ideal (⟨3, ![2, 512, 512]⟩ : Shape) .f32 :=
  fun i => scoreAt q rel (i 0) (i 1) (i 2)

theorem scores_ix3 (q : FVec Ideal (⟨3, ![2, 512, 256]⟩ : Shape) .f32) (rel : FVec Ideal (⟨4, ![2, 512, 512, 256]⟩ : Shape) .f32)
    (bb : Fin 2) (i j : Fin 512) : scores q rel (ix3 bb i j) = scoreAt q rel bb i j := rfl

end Cert.RelAttn

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.LibKeepdims.lean ====
/-
  The two "keepdims" column forms of a row reduction's result, read at an index.

  A length-a vector cast to an a by 1 column reads, at (i, u), the vector at i; an a by 1 column broadcast to a by b
  reads, at (p, c), the column at p. Together: a per-row quantity (a row's maximum, a row's sum) spread back over the
  row's entries.
-/
import Idealize.ShloMosaic.Lib.Pipeline.Value
import Idealize.ShloMosaic.Lib.ValueIdx

namespace Idealize.ShloMosaic.Keepdims

open Idealize.ShloMosaic Idealize.ShloMosaic.ValueIdx Idealize.ShloMosaic.Pipeline

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a per-row quantity spread over the row. -/
theorem column_spread {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Keepdims
-- ==== Proof.LibKeepdims3.lean ====
/-
  The "keepdims" forms at rank 3, and the sum along the last axis, read at an index.

  A sum along the last axis of an [a, b, c] array leaves an [a, b] array; "keepdims" puts a unit axis back in its
  place ([a, b] cast to [a, b, 1]) and a broadcast spreads the per-(i, j) quantity over the last axis again
  ([a, b, 1] to [a, b, c]). A block of rows [a, c] set against every middle coordinate goes [a, c] to [a, 1, c] to
  [a, b, c]; a block [b, c] set against every leading coordinate goes [b, c] to [1, b, c] to [a, b, c]. Each of these
  operations, read at coordinates, is its operand at the evident coordinates, whatever the extents. At the ideal
  instance the sum along the last axis of a matrix or of a rank-3 array, read at an index, is the finite sum over the
  last coordinate on the extended reals.
-/
import Idealize.ShloMosaic.Lib.Pipeline.Value
import Idealize.ShloMosaic.Lib.ValueIdx
import Idealize.ShloMosaic.PureOps.Ideal.Laws

open scoped BigOperators

namespace Idealize.ShloMosaic.Keepdims3

open Idealize.ShloMosaic Idealize.ShloMosaic.ValueIdx Idealize.ShloMosaic.Pipeline

section Layout
variable {α : Type}

/-- An `[a, c]` array cast to `[a, 1, c]` reads, at `(i, u, k)`, the operand at `(i, k)`, whatever the unit
    coordinate `u`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, b]` array cast to `[a, b, 1]` reads, at `(i, j, u)`, the operand at `(i, j)`, whatever the unit
    coordinate `u`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A block of rows set against every middle coordinate: `[a, c]` to `[a, 1, c]` to `[a, b, c]` reads the row. -/
theorem rows_spread {a b c : ℕ} (x : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ x h) h' (ix3 i j k) = x (ix2 i k) :=
  (broadcastTo_a1c_abc_apply _ h' i j k).trans (shapeCast_ac_a1c_apply x h i 0 k)

/-- A per-`(i, j)` quantity spread over the last axis: `[a, b]` to `[a, b, 1]` to `[a, b, c]`. -/
theorem lanes_spread {a b c : ℕ} (x : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ x h) h' (ix3 i j k) = x (ix2 i j) :=
  (broadcastTo_ab1_abc_apply _ h' i j k).trans (shapeCast_ab_ab1_apply x h i j 0)

/-- A block set against every leading coordinate: `[b, c]` to `[1, b, c]` to `[a, b, c]` reads the block. -/
theorem block_spread {a b c : ℕ} (x : (⟨2, ![b, c]⟩ : Shape).Idx → α)
    (h : (⟨2, ![b, c]⟩ : Shape).ShapeCasts ⟨3, ![1, b, c]⟩) (h' : (⟨3, ![1, b, c]⟩ : Shape).Broadcasts ⟨3, ![a, b, c]⟩)
    (i : Fin a) (j : Fin b) (k : Fin c) :
    broadcastTo ⟨3, ![a, b, c]⟩ (shapeCast ⟨3, ![1, b, c]⟩ x h) h' (ix3 i j k) = x (ix2 j k) :=
  (broadcastTo_1bc_abc_apply _ h' i j k).trans (by
    refine shapeCast_apply x h _ _ ?_
    rw [Shape.rowMajor_val_three, Shape.rowMajor_val_two]
    show j.val * c + k.val = ((0 : Fin 1).val * b + j.val) * c + k.val
    rw [Fin.val_zero, Nat.zero_mul, Nat.zero_add])

end Layout

section LaneSum
variable {φ : FTy}

/-- The sum of a matrix along its last axis, at row `i`: the finite sum of the row's entries. -/
theorem laneSum2_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = ∑ k : Fin b, src (ix2 i k)
  refine Finset.sum_congr rfl fun k _ => congrArg src (funext fun ax => ?_)
  match ax with
  | ⟨0, _⟩ => rfl
  | ⟨1, _⟩ => rfl

/-- The sum of a rank-3 array along its last axis, at `(i, j)`: the finite sum over the last coordinate. -/
theorem laneSum3_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  show ∑ k : Fin c, src (h.lift (ix2 i j) k) = ∑ k : Fin c, src (ix3 i j k)
  refine Finset.sum_congr rfl fun k _ => congrArg src (funext fun ax => ?_)
  match ax with
  | ⟨0, _⟩ => rfl
  | ⟨1, _⟩ => rfl
  | ⟨2, _⟩ => rfl

end LaneSum

end Idealize.ShloMosaic.Keepdims3
-- ==== Proof.Payloads.lean ====
/-
  The two kernels' arithmetic, read at an index, on the extended reals.

  First kernel (one batch's 512 rows). A row l of x is projected: lin (l, e) = Σ_k x (0, l, k) · w (k, e) + b (0, e)
  (the casts to bfloat16 are the identity on the extended reals, the product accumulates into zero, the bias row is
  set against every row). The squared norm of the row, Σ_d lin (l, d)², is taken along the last axis, kept as a
  column, floored, and its reciprocal square root is spread back over the row: the stored entry (0, l, e) is
  lin (l, e) · rsqrt (max (Σ_d lin (l, d)²) floor) = unit (lin (l, ·)) e. The kernel writes this computation
  twice (once per output); both are the same function of their operands.

  Second kernel (a 32 by 128 tile of pairs). For the pair (i, j) the row i of q is shifted by the pair's relative
  encoding, p d = q (0, i, d) + r (0, i, j, d); its squared norm along the last axis is kept as a unit axis, floored,
  and the reciprocal square root spread back; the scaled row is multiplied entry by entry by row j of q and summed
  along the last axis: the stored entry (0, i, j) is Σ_d unit p d · q (0, j, d).
-/
import proofs.«152561_j10161892623130_2_alg».proof.Proof.Gen.KernelIdeal.Skeleton
import proofs.«152561_j10161892623130_2_alg».proof.Proof.Spec
import proofs.«152561_j10161892623130_2_alg».proof.Proof.LibMatmulRows
import proofs.«152561_j10161892623130_2_alg».proof.Proof.LibKeepdims
import proofs.«152561_j10161892623130_2_alg».proof.Proof.LibKeepdims3
import Idealize.ShloMosaic.Lib.ValueLayout

open scoped BigOperators

noncomputable section

namespace Cert.RelAttn.Pay

open Idealize.ShloMosaic Idealize.ShloMosaic.ValueIdx Idealize.ShloMosaic.Pipeline
open Cert.KernelIdeal Cert.KernelIdeal.Gen

/-! ## The first kernel: a row projected, then scaled to unit length -/

/-- The product's dimension numbers leave the left operand's row where the output's row is … -/
theorem dot_lhs_row (i : S512x256.Idx) (q : dot_S512x512_S512x256_S512x256_1_0_0_1_n_n.contr.Idx) :
    (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide),
    dif_pos (show (0 : Fin S512x512.rank) ∈ dot_S512x512_S512x256_S512x256_1_0_0_1_n_n.lhsNonContracting by decide)]
  rfl

/-- … and the right operand's column where the output's column is. -/
theorem dot_rhs_col (i : S512x256.Idx) (q : dot_S512x512_S512x256_S512x256_1_0_0_1_n_n.contr.Idx) :
    (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide),
    dif_pos (show (1 : Fin S512x256.rank) ∈ dot_S512x512_S512x256_S512x256_1_0_0_1_n_n.rhsNonContracting by decide)]
  rfl

/-- The projection before scaling, at (l, e): the row l of x against column e of w, plus the bias at e. -/
theorem lin_apply (x : Vec Ideal S1x512x512 .f32) (w : Vec Ideal S512x256 .f32) (b2 : Vec Ideal S1x256 .f32)
    (l : Fin 512) (e : Fin 256) :
    k0_pay3 (F := Ideal) x w b2 (ix2 l e)
      = dense (fun k => x (ix3 0 l k)) (fun k e' => w (ix2 k e')) (fun e' => b2 (ix2 0 e')) e := by
  unfold k0_pay3
  refine (addf_apply _ _ _).trans ?_
  refine congrArg₂ (· + ·) ?_ ?_
  · exact MatmulRows.matmul_zero_rows dot_S512x512_S512x256_S512x256_1_0_0_1_n_n none rfl rfl rfl rfl
      dot_lhs_row dot_rhs_col _ _ (ix2 l e) (fun k => x (ix3 0 l k)) (fun k => w (ix2 k e))
      (fun k => shapeCast_1ab_ab_apply x _ l k) (fun _ => rfl)
  · exact (broadcastTo_1b_ab_apply _ _ l e).trans (congrFun (shapeCast_self b2 _) _)

/-- The squared norm of the projected row l, kept as a column: the sum of the squares along the row. -/
theorem sq_apply (x : Vec Ideal S1x512x512 .f32) (w : Vec Ideal S512x256 .f32) (b2 : Vec Ideal S1x256 .f32)
    (l : Fin 512) (u : Fin 1) :
    k0_pay4 (F := Ideal) x w b2 (ix2 l u)
      = ∑ d : Fin 256, k0_pay3 (F := Ideal) x w b2 (ix2 l d) * k0_pay3 (F := Ideal) x w b2 (ix2 l d) := by
  unfold k0_pay4
  refine (Keepdims.shapeCast_a_a1_apply _ _ l u).trans ?_
  exact Keepdims3.laneSum2_apply _ _ _ _ _ l

/-- The floor, a splat, reads the floor everywhere. -/
theorem floor_apply (l : Fin 512) (u : Fin 1) : k0_pay5 (F := Ideal) (ix2 l u) = floorSq := rfl

/-- The scaling step at (0, l, e), for any row block, column of squared norms and column of floors: the entry times
    the reciprocal square root of the larger of the row's squared norm and floor. -/
theorem scale_apply (v : FVec Ideal S512x256 .f32) (s f : FVec Ideal S512x1 .f32) (l : Fin 512) (e : Fin 256) :
    k0_pay1 (F := Ideal) v s f (ix3 0 l e)
      = v (ix2 l e) * Ideal.rsqrt (max (s (ix2 l 0)) (f (ix2 l 0))) := by
  unfold k0_pay1
  refine (shapeCast_ab_1ab_apply _ _ 0 l e).trans ?_
  refine (mulf_apply _ _ _).trans ?_
  exact congrArg (v (ix2 l e) * ·) (Keepdims.broadcastTo_a1_ab_apply _ _ l e)

/-- The second output's stored value at (0, l, e): the projected row l scaled to unit length, at e. -/
theorem pay_v (x : Vec Ideal S1x512x512 .f32) (w : Vec Ideal S512x256 .f32) (b2 : Vec Ideal S1x256 .f32)
    (l : Fin 512) (e : Fin 256) :
    k0_pay1 (F := Ideal) (k0_pay3 x w b2) (k0_pay4 x w b2) k0_pay5 (ix3 0 l e)
      = unit (dense (fun k => x (ix3 0 l k)) (fun k e' => w (ix2 k e')) (fun e' => b2 (ix2 0 e'))) e := by
  refine (scale_apply _ _ _ l e).trans ?_
  rw [sq_apply, floor_apply]
  simp only [lin_apply]
  rfl

/-- The first output's stored value is the same computation written out once more. -/
theorem pay_q (x : Vec Ideal S1x512x512 .f32) (w : Vec Ideal S512x256 .f32) (b2 : Vec Ideal S1x256 .f32)
    (l : Fin 512) (e : Fin 256) :
    k0_pay2 (F := Ideal) x w b2 (ix3 0 l e)
      = unit (dense (fun k => x (ix3 0 l k)) (fun k e' => w (ix2 k e')) (fun e' => b2 (ix2 0 e'))) e :=
  pay_v x w b2 l e

/-! ## The second kernel: a shifted row scaled to unit length, against another row -/

/-- The shifted row at (i, j, d): row i of the first tile, set against every j, plus the relative encoding. -/
theorem shift_apply (qi : Vec Ideal S1x32x256 .f32) (r : Vec Ideal S1x32x128x256 .f32)
    (i : Fin 32) (j : Fin 128) (d : Fin 256) :
    addf (F := Ideal) (φ := .f32) (broadcastTo S32x128x256 (shapeCast S32x1x256 (shapeCast S32x256 qi shapeCasts_S1x32x256_S32x256)
        shapeCasts_S32x256_S32x1x256) broadcasts_S32x1x256_S32x128x256)
      (shapeCast S32x128x256 r shapeCasts_S1x32x128x256_S32x128x256) (ix3 i j d)
      = qi (ix3 0 i d) + r (ix4 0 i j d) := by
  refine (addf_apply _ _ _).trans ?_
  refine congrArg₂ (· + ·) ?_ ?_
  · exact (Keepdims3.rows_spread _ _ _ i j d).trans (shapeCast_1ab_ab_apply qi _ i d)
  · exact shapeCast_1abc_abc_apply r _ i j d

/-- A rank-3 array scaled to unit length along its last axis, at (i, j, d): the squared norm along the last axis kept
    as a unit axis, floored, its reciprocal square root spread back and multiplied in. -/
theorem unit_lanes_apply (p : FVec Ideal S32x128x256 .f32) (i : Fin 32) (j : Fin 128) (d : Fin 256) :
    mulf p (broadcastTo S32x128x256 (rsqrt (maximumf
        (shapeCast S32x128x1 (multiReduction .add [2] S32x128 (mulf p p) 0x00000000#32 reduces_S32x128x256_S32x128
          (.inl rfl) rfl) shapeCasts_S32x128_S32x128x1)
        (broadcast S32x128x1 (Scalar.ofBits .f32 0x2B8CBCCC#32)))) broadcasts_S32x128x1_S32x128x256) (ix3 i j d)
      = unit (fun d' => p (ix3 i j d')) d := by
  refine (mulf_apply _ _ _).trans ?_
  refine congrArg (p (ix3 i j d) * ·) ?_
  refine (Keepdims3.broadcastTo_ab1_abc_apply _ _ i j d).trans ?_
  refine congrArg (fun t => Ideal.rsqrt (max t floorSq)) ?_
  refine (Keepdims3.shapeCast_ab_ab1_apply _ _ i j 0).trans ?_
  exact Keepdims3.laneSum3_apply _ _ _ _ _ i j

/-- The second tile set against every i, at (i, j, d): row j of it. -/
theorem other_apply (qj : Vec Ideal S1x128x256 .f32) (i : Fin 32) (j : Fin 128) (d : Fin 256) :
    broadcastTo S32x128x256 (shapeCast S1x128x256 (shapeCast S128x256 qj shapeCasts_S1x128x256_S128x256)
      shapeCasts_S128x256_S1x128x256) broadcasts_S1x128x256_S32x128x256 (ix3 i j d)
      = qj (ix3 0 j d) :=
  (Keepdims3.block_spread _ _ _ i j d).trans (shapeCast_1ab_ab_apply qj _ j d)

/-- The stored score at (0, i, j): the shifted row scaled to unit length, against row j, summed along the last axis. -/
theorem pay_s (qi : Vec Ideal S1x32x256 .f32) (qj : Vec Ideal S1x128x256 .f32) (r : Vec Ideal S1x32x128x256 .f32)
    (i : Fin 32) (j : Fin 128) :
    k1_pay1 (F := Ideal) qi qj r (ix3 0 i j)
      = ∑ d : Fin 256, unit (fun d' => qi (ix3 0 i d') + r (ix4 0 i j d')) d * qj (ix3 0 j d) := by
  unfold k1_pay1
  refine (shapeCast_ab_1ab_apply _ _ 0 i j).trans ?_
  refine (Keepdims3.laneSum3_apply _ _ _ _ _ i j).trans ?_
  refine Finset.sum_congr rfl fun d _ => ?_
  refine (mulf_apply _ _ _).trans ?_
  refine congrArg₂ (· * ·) ?_ (other_apply qj i j d)
  refine (unit_lanes_apply _ i j d).trans ?_
  exact congrArg (fun p => unit p d) (funext fun d' => shift_apply qi r i j d')

end Cert.RelAttn.Pay

end
-- ==== Proof.ArraysKI.lean ====
/-
  The kernel's blocks as whole arrays, on the extended reals.

  Region 0 has one grid point per batch. At point t the body reads batch t of the queries and of the values, the two
  weight matrices and the two bias rows whole, and stores block t of q and of v whole; its payloads are the normalised
  dense rows of the loaded blocks. An element of a block sits in its array, on each axis, at the block index times the
  block's size plus its coordinate inside the block, so block t of an array with blocks of one batch is batch t, and a
  block of the array's own size at block index 0 is the array. Hence what point t writes back is block t of the
  normalised projection of the whole arrays, the two blocks cover q and v, and after the region q and v ARE the
  normalised projections.

  Region 1 has 2 × 16 × 4 points, (batch, row tile of 32, column tile of 128) in that order. At a point the body reads
  the 32 rows of q of the row tile, the 128 rows of q of the column tile (the same array, through a second window), the
  matching block of the relative encoding, and stores the [32, 128] block of the scores; its payload at a pair (i, j) of
  the block is the score of rows i and j of the loaded blocks. Reading each block back to the arrays, the point writes
  block (batch, row tile, column tile) of the scores of q and the relative encoding; the point of batch b, row r and
  column s is the one numbered 64 b + 4 (r / 32) + s / 128, so the blocks cover the scores array, which therefore ends
  as the scores of q (as the region finds it) and the relative encoding.
-/
import proofs.«152561_j10161892623130_2_alg».proof.Proof.BodiesKI
import proofs.«152561_j10161892623130_2_alg».proof.Proof.Spec
import proofs.«152561_j10161892623130_2_alg».proof.Proof.Payloads
import Idealize.ShloMosaic.Lib.Pipeline.Value
import Idealize.ShloMosaic.Lib.ValueIdx

noncomputable section

open scoped BigOperators

namespace Cert.KernelIdeal.Arrays

open Cert.KernelIdeal Cert.KernelIdeal.Gen Cert.KernelIdeal.Run Cert.RelAttn
open Idealize.ShloMosaic Idealize.ShloMosaic.TcCoe Idealize.ShloMosaic.ValueIdx Idealize.SL.Sem
open Idealize.ShloMosaic.Pipeline (Dat)

-- the TensorCore's buffer contents when a region is entered
variable (V : (c : Dev nD) → (b : Ref sig .tc) → Buf (Elt Ideal) ((c : Thread nD τ).loc b))

theorem hz4 : (![0, 0, 0, 0] : Fin 4 → Nat) = fun _ => 0 := funext fun a => by fin_cases a <;> rfl

/-! ## Region 0: the two projections -/

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps of region 0 at each of its two points: the row blocks of the queries, of the values and of
    the two results are block `t` along the batch axis; the weights and the bias rows are read whole. -/
theorem idx_facts0 : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0)
    ∧ t.val < 2 :=
  (by decide +kernel : ∀ t : Fin grid0.N, _)

/-! ### Each input block, read off its array: a block's coordinate is the block index times the block's size plus the
    coordinate inside the block -/

/-- The queries block at point `t` is batch `t` of the queries. -/
theorem iblk0_0_at (c : Dev nD) (t : Fin cfg0.N) (x : S1x512x512.Idx) (k : S2x512x512.Idx)
    (hk0 : (k 0).val = t.val) (hk1 : (k 1).val = (x 1).val) (hk2 : (k 2).val = (x 2).val) :
    (iblk0 (F := Ideal) V c 0 t : Vec Ideal S1x512x512 .f32) x = (V c main_arg0 : S2x512x512.Idx → Elt Ideal .f32) k := by
  obtain ⟨⟨e0, e1, e2⟩, -⟩ := idx_facts0 t
  unfold iblk0
  rw [View.read_apply]
  show V c main_arg0 _ = V c main_arg0 _
  refine congrArg (V c main_arg0) (funext fun a => Fin.ext ?_)
  have hx0 : (x 0).val < 1 := (x 0).isLt
  match a with
  | ⟨0, _⟩ => show win0_0.index t (0 : Fin 3) * 1 + 1 * (x 0).val = (k 0).val; omega
  | ⟨1, _⟩ => show win0_0.index t (1 : Fin 3) * 512 + 1 * (x 1).val = (k 1).val; omega
  | ⟨2, _⟩ => show win0_0.index t (2 : Fin 3) * 512 + 1 * (x 2).val = (k 2).val; omega

/-- The values block at point `t` is batch `t` of the values. -/
theorem iblk0_1_at (c : Dev nD) (t : Fin cfg0.N) (x : S1x512x512.Idx) (k : S2x512x512.Idx)
    (hk0 : (k 0).val = t.val) (hk1 : (k 1).val = (x 1).val) (hk2 : (k 2).val = (x 2).val) :
    (iblk0 (F := Ideal) V c 1 t : Vec Ideal S1x512x512 .f32) x = (V c main_arg2 : S2x512x512.Idx → Elt Ideal .f32) k := by
  obtain ⟨-, ⟨e0, e1, e2⟩, -⟩ := idx_facts0 t
  unfold iblk0
  rw [View.read_apply]
  show V c main_arg2 _ = V c main_arg2 _
  refine congrArg (V c main_arg2) (funext fun a => Fin.ext ?_)
  have hx0 : (x 0).val < 1 := (x 0).isLt
  match a with
  | ⟨0, _⟩ => show win0_1.index t (0 : Fin 3) * 1 + 1 * (x 0).val = (k 0).val; omega
  | ⟨1, _⟩ => show win0_1.index t (1 : Fin 3) * 512 + 1 * (x 1).val = (k 1).val; omega
  | ⟨2, _⟩ => show win0_1.index t (2 : Fin 3) * 512 + 1 * (x 2).val = (k 2).val; omega

/-- The query weights are read whole at every point. -/
theorem iblk0_2_at (c : Dev nD) (t : Fin cfg0.N) (x : S512x256.Idx) :
    (iblk0 (F := Ideal) V c 2 t : Vec Ideal S512x256 .f32) x = (V c main_arg4 : S512x256.Idx → Elt Ideal .f32) x := by
  obtain ⟨-, -, ⟨e0, e1⟩, -⟩ := idx_facts0 t
  unfold iblk0
  rw [View.read_apply]
  show V c main_arg4 _ = V c main_arg4 _
  refine congrArg (V c main_arg4) (funext fun a => Fin.ext ?_)
  match a with
  | ⟨0, _⟩ => show win0_2.index t (0 : Fin 2) * 512 + 1 * (x 0).val = (x 0).val; omega
  | ⟨1, _⟩ => show win0_2.index t (1 : Fin 2) * 256 + 1 * (x 1).val = (x 1).val; omega

/-- The query bias row is read whole at every point. -/
theorem iblk0_3_at (c : Dev nD) (t : Fin cfg0.N) (x : S1x256.Idx) :
    (iblk0 (F := Ideal) V c 3 t : Vec Ideal S1x256 .f32) x = (V c main_v0 : S1x256.Idx → Elt Ideal .f32) x := by
  obtain ⟨-, -, -, ⟨e0, e1⟩, -⟩ := idx_facts0 t
  unfold iblk0
  rw [View.read_apply]
  show V c main_v0 _ = V c main_v0 _
  refine congrArg (V c main_v0) (funext fun a => Fin.ext ?_)
  match a with
  | ⟨0, _⟩ => show win0_3.index t (0 : Fin 2) * 1 + 1 * (x 0).val = (x 0).val; omega
  | ⟨1, _⟩ => show win0_3.index t (1 : Fin 2) * 256 + 1 * (x 1).val = (x 1).val; omega

/-- The value weights are read whole at every point. -/
theorem iblk0_4_at (c : Dev nD) (t : Fin cfg0.N) (x : S512x256.Idx) :
    (iblk0 (F := Ideal) V c 4 t : Vec Ideal S512x256 .f32) x = (V c main_arg8 : S512x256.Idx → Elt Ideal .f32) x := by
  obtain ⟨-, -, -, -, ⟨e0, e1⟩, -⟩ := idx_facts0 t
  unfold iblk0
  rw [View.read_apply]
  show V c main_arg8 _ = V c main_arg8 _
  refine congrArg (V c main_arg8) (funext fun a => Fin.ext ?_)
  match a with
  | ⟨0, _⟩ => show win0_4.index t (0 : Fin 2) * 512 + 1 * (x 0).val = (x 0).val; omega
  | ⟨1, _⟩ => show win0_4.index t (1 : Fin 2) * 256 + 1 * (x 1).val = (x 1).val; omega

/-- The value bias row is read whole at every point. -/
theorem iblk0_5_at (c : Dev nD) (t : Fin cfg0.N) (x : S1x256.Idx) :
    (iblk0 (F := Ideal) V c 5 t : Vec Ideal S1x256 .f32) x = (V c main_v1 : S1x256.Idx → Elt Ideal .f32) x := by
  obtain ⟨-, -, -, -, -, ⟨e0, e1⟩, -⟩ := idx_facts0 t
  unfold iblk0
  rw [View.read_apply]
  show V c main_v1 _ = V c main_v1 _
  refine congrArg (V c main_v1) (funext fun a => Fin.ext ?_)
  match a with
  | ⟨0, _⟩ => show win0_5.index t (0 : Fin 2) * 1 + 1 * (x 0).val = (x 0).val; omega
  | ⟨1, _⟩ => show win0_5.index t (1 : Fin 2) * 256 + 1 * (x 1).val = (x 1).val; omega

/-! ### One block of a projection -/

/-- A payload `P` that is the normalised dense row of its three blocks, on blocks that are batch `bb` of an array `X`,
    the weights `W` whole and a bias row holding `b`, is the normalised projection of `X`, `W`, `b` at batch `bb`. -/
theorem proj_block (P : Vec Ideal S1x512x512 .f32 → Vec Ideal S512x256 .f32 → Vec Ideal S1x256 .f32 → FVec Ideal S1x512x256 .f32)
    (hP : ∀ (x : Vec Ideal S1x512x512 .f32) (w : Vec Ideal S512x256 .f32) (b2 : Vec Ideal S1x256 .f32) (l : Fin 512) (e : Fin 256),
      P x w b2 (ix3 0 l e) = unit (dense (fun k => x (ix3 0 l k)) (fun k e' => w (ix2 k e')) (fun e' => b2 (ix2 0 e'))) e)
    (X : FVec Ideal S2x512x512 .f32) (W : FVec Ideal S512x256 .f32) (b : FVec Ideal S256 .f32)
    (x : Vec Ideal S1x512x512 .f32) (w : Vec Ideal S512x256 .f32) (b2 : Vec Ideal S1x256 .f32) (bb : Fin 2)
    (hx : ∀ l k : Fin 512, x (ix3 0 l k) = X (ix3 bb l k)) (hw : ∀ (k : Fin 512) (e : Fin 256), w (ix2 k e) = W (ix2 k e))
    (hb : ∀ e : Fin 256, b2 (ix2 0 e) = b (ix1 e))
    (j : S1x512x256.Idx) (i : S2x512x256.Idx)
    (hi0 : (i 0).val = bb.val) (hi1 : (i 1).val = (j 1).val) (hi2 : (i 2).val = (j 2).val) :
    P x w b2 j = proj X W b i := by
  obtain ⟨l, e, rfl⟩ : ∃ (l : Fin 512) (e : Fin 256), j = ix3 0 l e := ⟨j 1, j 2, funext fun a => Fin.ext (by
    have h0 : (j 0).val < 1 := (j 0).isLt
    match a with
    | ⟨0, _⟩ => show (j 0).val = 0; omega
    | ⟨1, _⟩ => rfl
    | ⟨2, _⟩ => rfl)⟩
  obtain rfl : i = ix3 bb l e := funext fun a => Fin.ext (by
    match a with
    | ⟨0, _⟩ => exact hi0
    | ⟨1, _⟩ => exact hi1
    | ⟨2, _⟩ => exact hi2)
  rw [hP, proj_ix3]
  unfold projAt
  simp only [hx, hw, hb]

/-! ### What each point writes back, the cover, and the arrays after the region -/

/-- What point `t` writes back to q is block `t` of the normalised projection of the queries. -/
theorem flushed0_6_eq
    (c : Dev nD) (b : FVec Ideal S256 .f32) (hb : ∀ e : Fin 256, V c main_v0 (ix2 0 e) = b (ix1 e)) (t : Fin cfg0.N) :
    (dat0 (F := Ideal) V c).flushed 6 t
      = ((cfg0.win 6).blk t).view.read (Elt Ideal) (proj (V c main_arg0) (V c main_arg4) b) := by
  show (cfg0.win 6).cut (grid0.coords t) ((dat0 (F := Ideal) V c).after 6 t) = _
  rw [after0_6]
  unfold out0_6
  rw [View.canon_unit_zero hz3]
  simp only [View.ld_unit_zero (S := S1x512x512) hz3, View.ld_unit_zero (S := S512x256) hz2, View.ld_unit_zero (S := S1x256) hz2]
  obtain ⟨-, -, -, -, -, -, ⟨e0, e1, e2⟩, -, ht⟩ := idx_facts0 t
  funext j
  rw [View.read_apply]
  have hj0 : (j 0).val < 1 := (j 0).isLt
  refine proj_block (k0_pay2 (F := Ideal)) Cert.RelAttn.Pay.pay_q (V c main_arg0) (V c main_arg4) b (iblk0 V c 0 t) (iblk0 V c 2 t) (iblk0 V c 3 t) ⟨t.val, ht⟩
    (fun l k => iblk0_0_at V c t _ _ rfl rfl rfl) (fun k e => iblk0_2_at V c t _) (fun e => (iblk0_3_at V c t _).trans (hb e))
    _ _ ?_ ?_ ?_
  · show win0_6.index t (0 : Fin 3) * 1 + 1 * (j 0).val = t.val; omega
  · show win0_6.index t (1 : Fin 3) * 512 + 1 * (j 1).val = (j 1).val; omega
  · show win0_6.index t (2 : Fin 3) * 256 + 1 * (j 2).val = (j 2).val; omega

/-- What point `t` writes back to v is block `t` of the normalised projection of the values. -/
theorem flushed0_7_eq
    (c : Dev nD) (b : FVec Ideal S256 .f32) (hb : ∀ e : Fin 256, V c main_v1 (ix2 0 e) = b (ix1 e)) (t : Fin cfg0.N) :
    (dat0 (F := Ideal) V c).flushed 7 t
      = ((cfg0.win 7).blk t).view.read (Elt Ideal) (proj (V c main_arg2) (V c main_arg8) b) := by
  show (cfg0.win 7).cut (grid0.coords t) ((dat0 (F := Ideal) V c).after 7 t) = _
  rw [after0_7]
  unfold out0_7
  rw [View.canon_unit_zero hz3]
  simp only [View.ld_unit_zero (S := S1x512x512) hz3, View.ld_unit_zero (S := S512x256) hz2, View.ld_unit_zero (S := S1x256) hz2]
  obtain ⟨-, -, -, -, -, -, -, ⟨e0, e1, e2⟩, ht⟩ := idx_facts0 t
  funext j
  rw [View.read_apply]
  have hj0 : (j 0).val < 1 := (j 0).isLt
  refine proj_block (fun x w b2 => k0_pay1 (F := Ideal) (k0_pay3 x w b2) (k0_pay4 x w b2) k0_pay5) Cert.RelAttn.Pay.pay_v
    (V c main_arg2) (V c main_arg8) b (iblk0 V c 1 t) (iblk0 V c 4 t) (iblk0 V c 5 t) ⟨t.val, ht⟩
    (fun l k => iblk0_1_at V c t _ _ rfl rfl rfl) (fun k e => iblk0_4_at V c t _) (fun e => (iblk0_5_at V c t _).trans (hb e))
    _ _ ?_ ?_ ?_
  · show win0_7.index t (0 : Fin 3) * 1 + 1 * (j 0).val = t.val; omega
  · show win0_7.index t (1 : Fin 3) * 512 + 1 * (j 1).val = (j 1).val; omega
  · show win0_7.index t (2 : Fin 3) * 256 + 1 * (j 2).val = (j 2).val; omega

/-- An index of q is in point `t`'s block iff each coordinate is in the block's range on its axis. -/
theorem mem_blk0_6 (t : Fin cfg0.N) (i : S2x512x256.Idx) :
    i ∈ ((cfg0.win 6).blk t).view.set ↔ ∀ a : Fin 3, win0_6.index t a * S1x512x256.size a ≤ (i a).val
      ∧ (i a).val < win0_6.index t a * S1x512x256.size a + S1x512x256.size a := by
  show i ∈ ((View.whole main_v2_0).slice (win0_6.rect t)).set ↔ _
  rw [View.set_slice_whole, Rect.mem_set_unit]
  exact Iff.rfl

/-- An index of v is in point `t`'s block iff each coordinate is in the block's range on its axis. -/
theorem mem_blk0_7 (t : Fin cfg0.N) (i : S2x512x256.Idx) :
    i ∈ ((cfg0.win 7).blk t).view.set ↔ ∀ a : Fin 3, win0_7.index t a * S1x512x256.size a ≤ (i a).val
      ∧ (i a).val < win0_7.index t a * S1x512x256.size a + S1x512x256.size a := by
  show i ∈ ((View.whole main_v2_1).slice (win0_7.rect t)).set ↔ _
  rw [View.set_slice_whole, Rect.mem_set_unit]
  exact Iff.rfl

/-- The point of batch `b`. -/
def pt0 (b : Fin 2) : Fin cfg0.N := ⟨b.val, by have := b.isLt; rw [show cfg0.N = 2 from N_0]; omega⟩

/-- Every index of q is in the block of the point of its batch. -/
theorem cover0_6 (i : S2x512x256.Idx) : ∃ t : Fin cfg0.N, (cfg0.win 6).flush t = true ∧ i ∈ ((cfg0.win 6).blk t).view.set := by
  refine ⟨pt0 (i 0), flush0_6 _, ?_⟩
  rw [mem_blk0_6]
  obtain ⟨-, -, -, -, -, -, ⟨e0, e1, e2⟩, -⟩ := idx_facts0 (pt0 (i 0))
  have ht : (pt0 (i 0)).val = (i 0).val := rfl
  have h1 : (i 1).val < 512 := (i 1).isLt
  have h2 : (i 2).val < 256 := (i 2).isLt
  intro a
  match a with
  | ⟨0, _⟩ => show win0_6.index (pt0 (i 0)) (0 : Fin 3) * 1 ≤ (i 0).val ∧ (i 0).val < win0_6.index (pt0 (i 0)) (0 : Fin 3) * 1 + 1; omega
  | ⟨1, _⟩ => show win0_6.index (pt0 (i 0)) (1 : Fin 3) * 512 ≤ (i 1).val ∧ (i 1).val < win0_6.index (pt0 (i 0)) (1 : Fin 3) * 512 + 512; omega
  | ⟨2, _⟩ => show win0_6.index (pt0 (i 0)) (2 : Fin 3) * 256 ≤ (i 2).val ∧ (i 2).val < win0_6.index (pt0 (i 0)) (2 : Fin 3) * 256 + 256; omega

/-- Every index of v is in the block of the point of its batch. -/
theorem cover0_7 (i : S2x512x256.Idx) : ∃ t : Fin cfg0.N, (cfg0.win 7).flush t = true ∧ i ∈ ((cfg0.win 7).blk t).view.set := by
  refine ⟨pt0 (i 0), flush0_7 _, ?_⟩
  rw [mem_blk0_7]
  obtain ⟨-, -, -, -, -, -, -, ⟨e0, e1, e2⟩, -⟩ := idx_facts0 (pt0 (i 0))
  have ht : (pt0 (i 0)).val = (i 0).val := rfl
  have h1 : (i 1).val < 512 := (i 1).isLt
  have h2 : (i 2).val < 256 := (i 2).isLt
  intro a
  match a with
  | ⟨0, _⟩ => show win0_7.index (pt0 (i 0)) (0 : Fin 3) * 1 ≤ (i 0).val ∧ (i 0).val < win0_7.index (pt0 (i 0)) (0 : Fin 3) * 1 + 1; omega
  | ⟨1, _⟩ => show win0_7.index (pt0 (i 0)) (1 : Fin 3) * 512 ≤ (i 1).val ∧ (i 1).val < win0_7.index (pt0 (i 0)) (1 : Fin 3) * 512 + 512; omega
  | ⟨2, _⟩ => show win0_7.index (pt0 (i 0)) (2 : Fin 3) * 256 ≤ (i 2).val ∧ (i 2).val < win0_7.index (pt0 (i 0)) (2 : Fin 3) * 256 + 256; omega

/-- After region 0, q is the normalised projection of the queries. -/
theorem q_final
    (c : Dev nD) (b : FVec Ideal S256 .f32) (hb : ∀ e : Fin 256, V c main_v0 (ix2 0 e) = b (ix1 e)) :
    (dat0 (F := Ideal) V c).arrAt 6 cfg0.N = proj (V c main_arg0) (V c main_arg4) b :=
  (dat0 (F := Ideal) V c).arrAt_eq_of_cover 6 (proj (V c main_arg0) (V c main_arg4) b)
    (fun t _ => flushed0_6_eq V c b hb t) cover0_6

/-- After region 0, v is the normalised projection of the values. -/
theorem v_final
    (c : Dev nD) (b : FVec Ideal S256 .f32) (hb : ∀ e : Fin 256, V c main_v1 (ix2 0 e) = b (ix1 e)) :
    (dat0 (F := Ideal) V c).arrAt 7 cfg0.N = proj (V c main_arg2) (V c main_arg8) b :=
  (dat0 (F := Ideal) V c).arrAt_eq_of_cover 7 (proj (V c main_arg2) (V c main_arg8) b)
    (fun t _ => flushed0_7_eq V c b hb t) cover0_7

/-! ## Region 1: the scores -/

/-- The index maps of region 1 at each of its 128 points: the scores block of point `t` is block
    (batch, row tile, column tile) of the scores; the rows of q for the row tile, the rows of q for the column tile and the
    block of the relative encoding move with it; and the three block indices are the digits of `t` in the grid's order. -/
theorem idx_facts1 : ∀ t : Fin cfg1.N,
    (win1_0.index t (0 : Fin 3) = win1_3.index t (0 : Fin 3) ∧ win1_0.index t (1 : Fin 3) = win1_3.index t (1 : Fin 3)
      ∧ win1_0.index t (2 : Fin 3) = 0)
    ∧ (win1_1.index t (0 : Fin 3) = win1_3.index t (0 : Fin 3) ∧ win1_1.index t (1 : Fin 3) = win1_3.index t (2 : Fin 3)
      ∧ win1_1.index t (2 : Fin 3) = 0)
    ∧ (win1_2.index t (0 : Fin 4) = win1_3.index t (0 : Fin 3) ∧ win1_2.index t (1 : Fin 4) = win1_3.index t (1 : Fin 3)
      ∧ win1_2.index t (2 : Fin 4) = win1_3.index t (2 : Fin 3) ∧ win1_2.index t (3 : Fin 4) = 0)
    ∧ (win1_3.index t (0 : Fin 3) = t.val / 64 ∧ win1_3.index t (1 : Fin 3) = t.val / 4 % 16
      ∧ win1_3.index t (2 : Fin 3) = t.val % 4)
    ∧ t.val < 128 :=
  (by decide +kernel : ∀ t : Fin grid1.N, _)

/-- The rows of q for the row tile of point `t`. -/
theorem iblk1_0_at (c : Dev nD) (t : Fin cfg1.N) (x : S1x32x256.Idx) (k : S2x512x256.Idx)
    (hk0 : (k 0).val = win1_3.index t (0 : Fin 3)) (hk1 : (k 1).val = win1_3.index t (1 : Fin 3) * 32 + (x 1).val)
    (hk2 : (k 2).val = (x 2).val) :
    (iblk1 (F := Ideal) V c 0 t : Vec Ideal S1x32x256 .f32) x = (V c main_v2_0 : S2x512x256.Idx → Elt Ideal .f32) k := by
  obtain ⟨⟨e0, e1, e2⟩, -⟩ := idx_facts1 t
  unfold iblk1
  rw [View.read_apply]
  show V c main_v2_0 _ = V c main_v2_0 _
  refine congrArg (V c main_v2_0) (funext fun a => Fin.ext ?_)
  have hx0 : (x 0).val < 1 := (x 0).isLt
  match a with
  | ⟨0, _⟩ => show win1_0.index t (0 : Fin 3) * 1 + 1 * (x 0).val = (k 0).val; omega
  | ⟨1, _⟩ => show win1_0.index t (1 : Fin 3) * 32 + 1 * (x 1).val = (k 1).val; omega
  | ⟨2, _⟩ => show win1_0.index t (2 : Fin 3) * 256 + 1 * (x 2).val = (k 2).val; omega

/-- The rows of q for the column tile of point `t`: the same array through the second window. -/
theorem iblk1_1_at (c : Dev nD) (t : Fin cfg1.N) (x : S1x128x256.Idx) (k : S2x512x256.Idx)
    (hk0 : (k 0).val = win1_3.index t (0 : Fin 3)) (hk1 : (k 1).val = win1_3.index t (2 : Fin 3) * 128 + (x 1).val)
    (hk2 : (k 2).val = (x 2).val) :
    (iblk1 (F := Ideal) V c 1 t : Vec Ideal S1x128x256 .f32) x = (V c main_v2_0 : S2x512x256.Idx → Elt Ideal .f32) k := by
  obtain ⟨-, ⟨e0, e1, e2⟩, -⟩ := idx_facts1 t
  unfold iblk1
  rw [View.read_apply]
  show V c main_v2_0 _ = V c main_v2_0 _
  refine congrArg (V c main_v2_0) (funext fun a => Fin.ext ?_)
  have hx0 : (x 0).val < 1 := (x 0).isLt
  match a with
  | ⟨0, _⟩ => show win1_1.index t (0 : Fin 3) * 1 + 1 * (x 0).val = (k 0).val; omega
  | ⟨1, _⟩ => show win1_1.index t (1 : Fin 3) * 128 + 1 * (x 1).val = (k 1).val; omega
  | ⟨2, _⟩ => show win1_1.index t (2 : Fin 3) * 256 + 1 * (x 2).val = (k 2).val; omega

/-- The block of the relative encoding of point `t`. -/
theorem iblk1_2_at (c : Dev nD) (t : Fin cfg1.N) (x : S1x32x128x256.Idx) (k : S2x512x512x256.Idx)
    (hk0 : (k 0).val = win1_3.index t (0 : Fin 3)) (hk1 : (k 1).val = win1_3.index t (1 : Fin 3) * 32 + (x 1).val)
    (hk2 : (k 2).val = win1_3.index t (2 : Fin 3) * 128 + (x 2).val) (hk3 : (k 3).val = (x 3).val) :
    (iblk1 (F := Ideal) V c 2 t : Vec Ideal S1x32x128x256 .f32) x = (V c main_arg3 : S2x512x512x256.Idx → Elt Ideal .f32) k := by
  obtain ⟨-, -, ⟨e0, e1, e2, e3⟩, -⟩ := idx_facts1 t
  unfold iblk1
  rw [View.read_apply]
  show V c main_arg3 _ = V c main_arg3 _
  refine congrArg (V c main_arg3) (funext fun a => Fin.ext ?_)
  have hx0 : (x 0).val < 1 := (x 0).isLt
  match a with
  | ⟨0, _⟩ => show win1_2.index t (0 : Fin 4) * 1 + 1 * (x 0).val = (k 0).val; omega
  | ⟨1, _⟩ => show win1_2.index t (1 : Fin 4) * 32 + 1 * (x 1).val = (k 1).val; omega
  | ⟨2, _⟩ => show win1_2.index t (2 : Fin 4) * 128 + 1 * (x 2).val = (k 2).val; omega
  | ⟨3, _⟩ => show win1_2.index t (3 : Fin 4) * 256 + 1 * (x 3).val = (k 3).val; omega

/-- The scores payload at a pair, on blocks that hold row `I` and row `J` of batch `bb` of `Q` and the pair's relative
    encoding, is the score of the pair. -/
theorem score_point
    (Q : FVec Ideal S2x512x256 .f32) (R : FVec Ideal S2x512x512x256 .f32)
    (qi : Vec Ideal S1x32x256 .f32) (qj : Vec Ideal S1x128x256 .f32) (r : Vec Ideal S1x32x128x256 .f32)
    (bb : Fin 2) (i : Fin 32) (j : Fin 128) (I J : Fin 512)
    (hqi : ∀ d : Fin 256, qi (ix3 0 i d) = Q (ix3 bb I d)) (hqj : ∀ d : Fin 256, qj (ix3 0 j d) = Q (ix3 bb J d))
    (hr : ∀ d : Fin 256, r (ix4 0 i j d) = R (ix4 bb I J d)) :
    k1_pay1 (F := Ideal) qi qj r (ix3 0 i j) = scores Q R (ix3 bb I J) := by
  rw [Cert.RelAttn.Pay.pay_s, scores_ix3]
  unfold scoreAt
  simp only [hqi, hqj, hr]

/-- The same at an index of the block and the index of the scores it sits at: row tile `I0`, column tile `J0`. -/
theorem score_block
    (Q : FVec Ideal S2x512x256 .f32) (R : FVec Ideal S2x512x512x256 .f32)
    (qi : Vec Ideal S1x32x256 .f32) (qj : Vec Ideal S1x128x256 .f32) (r : Vec Ideal S1x32x128x256 .f32)
    (b0 I0 J0 : Nat)
    (hqi : ∀ (x : S1x32x256.Idx) (k : S2x512x256.Idx), (k 0).val = b0 → (k 1).val = I0 * 32 + (x 1).val → (k 2).val = (x 2).val → qi x = Q k)
    (hqj : ∀ (x : S1x128x256.Idx) (k : S2x512x256.Idx), (k 0).val = b0 → (k 1).val = J0 * 128 + (x 1).val → (k 2).val = (x 2).val → qj x = Q k)
    (hr : ∀ (x : S1x32x128x256.Idx) (k : S2x512x512x256.Idx), (k 0).val = b0 → (k 1).val = I0 * 32 + (x 1).val
      → (k 2).val = J0 * 128 + (x 2).val → (k 3).val = (x 3).val → r x = R k)
    (y : S1x32x128.Idx) (s : S2x512x512.Idx)
    (hs0 : (s 0).val = b0) (hs1 : (s 1).val = I0 * 32 + (y 1).val) (hs2 : (s 2).val = J0 * 128 + (y 2).val) :
    k1_pay1 (F := Ideal) qi qj r y = scores Q R s := by
  obtain ⟨i, j, rfl⟩ : ∃ (i : Fin 32) (j : Fin 128), y = ix3 0 i j := ⟨y 1, y 2, funext fun a => Fin.ext (by
    have h0 : (y 0).val < 1 := (y 0).isLt
    match a with
    | ⟨0, _⟩ => show (y 0).val = 0; omega
    | ⟨1, _⟩ => rfl
    | ⟨2, _⟩ => rfl)⟩
  obtain ⟨bb, I, J, rfl⟩ : ∃ (bb : Fin 2) (I J : Fin 512), s = ix3 bb I J := ⟨s 0, s 1, s 2, eq_ix3 s⟩
  exact score_point Q R qi qj r bb i j I J (fun d => hqi _ _ hs0 hs1 rfl) (fun d => hqj _ _ hs0 hs2 rfl)
    (fun d => hr _ _ hs0 hs1 hs2 rfl)

/-- What point `t` writes back to the scores is block `t` of the scores of q and the relative encoding. -/
theorem flushed1_3_eq
    (c : Dev nD) (t : Fin cfg1.N) :
    (dat1 (F := Ideal) V c).flushed 3 t
      = ((cfg1.win 3).blk t).view.read (Elt Ideal) (scores (V c main_v2_0) (V c main_arg3)) := by
  show (cfg1.win 3).cut (grid1.coords t) ((dat1 (F := Ideal) V c).after 3 t) = _
  rw [after1_3]
  unfold out1_3
  rw [View.canon_unit_zero hz3]
  simp only [View.ld_unit_zero (S := S1x32x256) hz3, View.ld_unit_zero (S := S1x128x256) hz3, View.ld_unit_zero (S := S1x32x128x256) hz4]
  funext y
  rw [View.read_apply]
  have hy0 : (y 0).val < 1 := (y 0).isLt
  refine score_block (V c main_v2_0) (V c main_arg3) (iblk1 V c 0 t) (iblk1 V c 1 t) (iblk1 V c 2 t)
    (win1_3.index t (0 : Fin 3)) (win1_3.index t (1 : Fin 3)) (win1_3.index t (2 : Fin 3))
    (fun x k h0 h1 h2 => iblk1_0_at V c t x k h0 h1 h2) (fun x k h0 h1 h2 => iblk1_1_at V c t x k h0 h1 h2)
    (fun x k h0 h1 h2 h3 => iblk1_2_at V c t x k h0 h1 h2 h3) _ _ ?_ ?_ ?_
  · show win1_3.index t (0 : Fin 3) * 1 + 1 * (y 0).val = win1_3.index t (0 : Fin 3); omega
  · show win1_3.index t (1 : Fin 3) * 32 + 1 * (y 1).val = win1_3.index t (1 : Fin 3) * 32 + (y 1).val; omega
  · show win1_3.index t (2 : Fin 3) * 128 + 1 * (y 2).val = win1_3.index t (2 : Fin 3) * 128 + (y 2).val; omega

/-- An index of the scores is in point `t`'s block iff each coordinate is in the block's range on its axis. -/
theorem mem_blk1_3 (t : Fin cfg1.N) (i : S2x512x512.Idx) :
    i ∈ ((cfg1.win 3).blk t).view.set ↔ ∀ a : Fin 3, win1_3.index t a * S1x32x128.size a ≤ (i a).val
      ∧ (i a).val < win1_3.index t a * S1x32x128.size a + S1x32x128.size a := by
  show i ∈ ((View.whole main_v3).slice (win1_3.rect t)).set ↔ _
  rw [View.set_slice_whole, Rect.mem_set_unit]
  exact Iff.rfl

/-- The point of batch `b`, row tile `I`, column tile `J`, in the grid's order. -/
def pt1 (b I J : Nat) (hb : b < 2) (hI : I < 16) (hJ : J < 4) : Fin cfg1.N :=
  ⟨b * 64 + I * 4 + J, by rw [show cfg1.N = 128 from N_1]; omega⟩

/-- Every index of the scores is in the block of the point of its batch, of its row's tile of 32 and of its column's
    tile of 128. -/
theorem cover1_3 (i : S2x512x512.Idx) : ∃ t : Fin cfg1.N, (cfg1.win 3).flush t = true ∧ i ∈ ((cfg1.win 3).blk t).view.set := by
  have h0 : (i 0).val < 2 := (i 0).isLt
  have h1 : (i 1).val < 512 := (i 1).isLt
  have h2 : (i 2).val < 512 := (i 2).isLt
  refine ⟨pt1 (i 0).val ((i 1).val / 32) ((i 2).val / 128) h0 (by omega) (by omega), flush1_3 _, ?_⟩
  rw [mem_blk1_3]
  obtain ⟨-, -, -, ⟨e0, e1, e2⟩, -⟩ := idx_facts1 (pt1 (i 0).val ((i 1).val / 32) ((i 2).val / 128) h0 (by omega) (by omega))
  have ht : (pt1 (i 0).val ((i 1).val / 32) ((i 2).val / 128) h0 (by omega) (by omega)).val
      = (i 0).val * 64 + (i 1).val / 32 * 4 + (i 2).val / 128 := rfl
  rw [ht] at e0 e1 e2
  intro a
  match a with
  | ⟨0, _⟩ =>
    show win1_3.index _ (0 : Fin 3) * 1 ≤ (i 0).val ∧ (i 0).val < win1_3.index _ (0 : Fin 3) * 1 + 1
    rw [e0]; omega
  | ⟨1, _⟩ =>
    show win1_3.index _ (1 : Fin 3) * 32 ≤ (i 1).val ∧ (i 1).val < win1_3.index _ (1 : Fin 3) * 32 + 32
    rw [e1]; omega
  | ⟨2, _⟩ =>
    show win1_3.index _ (2 : Fin 3) * 128 ≤ (i 2).val ∧ (i 2).val < win1_3.index _ (2 : Fin 3) * 128 + 128
    rw [e2]; omega

/-- After region 1, the scores array is the scores of q as region 1 finds it and of the relative encoding. -/
theorem s_final
    (c : Dev nD) :
    (dat1 (F := Ideal) V c).arrAt 3 cfg1.N = scores (V c main_v2_0) (V c main_arg3) :=
  (dat1 (F := Ideal) V c).arrAt_eq_of_cover 3 (scores (V c main_v2_0) (V c main_arg3))
    (fun t _ => flushed1_3_eq V c t) cover1_3

end Cert.KernelIdeal.Arrays

end
-- ==== Proof.FinalKI.lean ====
/-
  The idealized kernel program's run, with its results named by the specification.

  The final memory agrees with the last boundary's contents on every unscoped buffer. There the scores' buffer holds
  what region 1's pipeline leaves, which is the scores of q, as region 0 left it, and of the relative encoding, which
  nothing writes; q's and v's buffers hold what region 0's pipeline leaves, the projections of the queries and of the
  values, as launched, by the weights as launched and by the bias rows; and a bias row, the reshape of a bias vector
  of length 256 to one row, reads the vector entry by entry. The arguments end as launched.
-/
import proofs.«152561_j10161892623130_2_alg».proof.Proof.ArgsKI
import proofs.«152561_j10161892623130_2_alg».proof.Proof.ArraysKI
import proofs.«152561_j10161892623130_2_alg».proof.Proof.Spec
import Idealize.ShloMosaic.Lib.ValueLayout

noncomputable section

namespace Cert.KernelIdeal.Final

open Cert.KernelIdeal Cert.KernelIdeal.Gen Cert.KernelIdeal.Run
open Idealize.ShloMosaic Idealize.ShloMosaic.TcCoe Idealize.ShloMosaic.ValueIdx Idealize.ShloMosaic.Pipeline
open Idealize.SL.Sem

variable (m : (ℓ : Loc nD τ sig) → Buf (Elt Ideal) ℓ) (ρ : Dev nD → PrngReg)

/-! ## The bias rows: a vector of length 256 viewed as one row -/

/-- The first bias row at region 0's entry, entry by entry: the first bias vector as launched. -/
theorem row0_apply (c : Dev nD) (e : Fin 256) :
    V1 m ρ c main_v0 (ix2 0 e) = m ((c.tc : Thread nD τ).loc main_arg5) (ix1 e) := by
  have hrow : (W1 m ρ c (Proc.devRef .tc main_v0) : S1x256.Idx → EReal)
      = shapeCast S1x256 (m ((c.tc : Thread nD τ).loc main_arg5)) shapeCasts_S256_S1x256 := by
    dsimp only [W1, hostOps0]; after_results; rfl
  exact (congrFun hrow _).trans (shapeCast_a_1a_apply _ _ 0 e)

/-- The second bias row likewise: the third bias vector as launched. -/
theorem row1_apply (c : Dev nD) (e : Fin 256) :
    V1 m ρ c main_v1 (ix2 0 e) = m ((c.tc : Thread nD τ).loc main_arg9) (ix1 e) := by
  have hrow : (W1 m ρ c (Proc.devRef .tc main_v1) : S1x256.Idx → EReal)
      = shapeCast S1x256 (m ((c.tc : Thread nD τ).loc main_arg9)) shapeCasts_S256_S1x256 := by
    dsimp only [W1, hostOps0]; after_results; rfl
  exact (congrFun hrow _).trans (shapeCast_a_1a_apply _ _ 0 e)

/-! ## The three results at the last boundary -/

/-- q at region 0's exit: the queries projected by the first weights and bias, each row scaled to unit length. -/
theorem q_eq (c : Dev nD) :
    W2 m ρ c (Proc.devRef .tc main_v2_0)
      = Cert.RelAttn.proj (m ((c.tc : Thread nD τ).loc main_arg0)) (m ((c.tc : Thread nD τ).loc main_arg4))
          (m ((c.tc : Thread nD τ).loc main_arg5)) := by
  refine (W2_arr m ρ c 6).trans ?_
  refine (Arrays.q_final (V1 m ρ) c (m ((c.tc : Thread nD τ).loc main_arg5)) (row0_apply m ρ c)).trans ?_
  rw [show V1 m ρ c main_arg0 = m ((c.tc : Thread nD τ).loc main_arg0) from W1_of_ne m ρ c main_arg0 (by decide) (by decide),
    show V1 m ρ c main_arg4 = m ((c.tc : Thread nD τ).loc main_arg4) from W1_of_ne m ρ c main_arg4 (by decide) (by decide)]

/-- v at region 0's exit: the values projected by the third weights and bias, each row scaled to unit length. -/
theorem v_eq (c : Dev nD) :
    W2 m ρ c (Proc.devRef .tc main_v2_1)
      = Cert.RelAttn.proj (m ((c.tc : Thread nD τ).loc main_arg2)) (m ((c.tc : Thread nD τ).loc main_arg8))
          (m ((c.tc : Thread nD τ).loc main_arg9)) := by
  refine (W2_arr m ρ c 7).trans ?_
  refine (Arrays.v_final (V1 m ρ) c (m ((c.tc : Thread nD τ).loc main_arg9)) (row1_apply m ρ c)).trans ?_
  rw [show V1 m ρ c main_arg2 = m ((c.tc : Thread nD τ).loc main_arg2) from W1_of_ne m ρ c main_arg2 (by decide) (by decide),
    show V1 m ρ c main_arg8 = m ((c.tc : Thread nD τ).loc main_arg8) from W1_of_ne m ρ c main_arg8 (by decide) (by decide)]

/-- The scores at region 1's exit: of q as region 0 left it and the relative encoding as launched. -/
theorem s_eq (c : Dev nD) :
    W3 m ρ c (Proc.devRef .tc main_v3)
      = Cert.RelAttn.scores (Cert.RelAttn.proj (m ((c.tc : Thread nD τ).loc main_arg0)) (m ((c.tc : Thread nD τ).loc main_arg4))
          (m ((c.tc : Thread nD τ).loc main_arg5))) (m ((c.tc : Thread nD τ).loc main_arg3)) := by
  refine (W3_v3 m ρ c).trans ?_
  refine (Arrays.s_final (V2 m ρ) c).trans ?_
  rw [show V2 m ρ c main_v2_0 = _ from q_eq m ρ c,
    show V2 m ρ c main_arg3 = m ((c.tc : Thread nD τ).loc main_arg3) from
      (W2_of_ne m ρ c main_arg3 (by decide)).trans (W1_of_ne m ρ c main_arg3 (by decide) (by decide))]

/-! ## The run -/

/-- The program runs, and ends with the scores, v and q at the specification's arrays of the launch memory and every
    argument as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3)
        = Cert.RelAttn.scores (Cert.RelAttn.proj (m ((c.tc : Thread nD τ).loc main_arg0)) (m ((c.tc : Thread nD τ).loc main_arg4))
            (m ((c.tc : Thread nD τ).loc main_arg5))) (m ((c.tc : Thread nD τ).loc main_arg3))
      ∧ r.2.mem ((c.tc : Thread nD τ).loc main_v2_1)
        = Cert.RelAttn.proj (m ((c.tc : Thread nD τ).loc main_arg2)) (m ((c.tc : Thread nD τ).loc main_arg8))
            (m ((c.tc : Thread nD τ).loc main_arg9))
      ∧ r.2.mem ((c.tc : Thread nD τ).loc main_v2_0)
        = Cert.RelAttn.proj (m ((c.tc : Thread nD τ).loc main_arg0)) (m ((c.tc : Thread nD τ).loc main_arg4))
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v3 (by decide))).trans (s_eq m ρ c),
     (h c _ (mem_uc main_v2_1 (by decide))).trans ((W3_of_ne m ρ c main_v2_1 (by decide)).trans (v_eq m ρ c)),
     (h c _ (mem_uc main_v2_0 (by decide))).trans ((W3_of_ne m ρ c main_v2_0 (by decide)).trans (q_eq m ρ c)),
     frame_post m ρ r h c⟩) (run_main m ρ)

end Cert.KernelIdeal.Final

end
-- ==== Proof.RefSpec.lean ====
/-
  The reference side. The reference program computes, on the extended reals,

    q = the rows of queries projected by Wq, bq and scaled to unit length,
    v = the rows of values  projected by Wv, bv and scaled to unit length,
    scores (b, i, j) = Σ_d q (b, j, d) · unit (q (b, i, ·) + rel (b, i, j, ·)) d,

  each as a chain of elementwise operations, broadcasts along new or unit axes, and sums along the last axis into a
  zero start value. Read at an index, a broadcast only forgets or repeats a coordinate, so every stage is the formula
  of the specification at that index: the dense row `Σ_k x k · W k e + b e`, then the row times the reciprocal
  square root of its floored squared norm. A sum into the zero start value is `0 + Σ`, which is the sum. The reference
  multiplies the row j of q by the shifted unit row; the specification writes the factors in the other order, and
  multiplication of extended reals commutes (no finiteness is needed anywhere here). The two projections are the
  same chain of operations on different arguments, so one reading serves both; the scores read q through two
  broadcasts and are stated over q as a whole, never reopening its operations.
-/
import proofs.«152561_j10161892623130_2_alg».proof.Proof.Gen.ReferenceIdeal.Read
import proofs.«152561_j10161892623130_2_alg».proof.Proof.Spec

noncomputable section

open scoped BigOperators

namespace Cert.RelAttn.Ref

open Cert.ReferenceIdeal Cert.ReferenceIdeal.Gen Cert.ReferenceIdeal.Read
open Idealize.ShloMosaic Idealize.ShloMosaic.ValueIdx Idealize.ShloMosaic.TcCoe Idealize.SL.Sem

/-! ## The projection -/

/-- The projected row before scaling: the contraction over the 512 input features plus the bias, the bias reaching
    column `e` through two broadcasts that keep only the last coordinate. -/
theorem dense_at (x : (⟨S2x512x512, .f32⟩ : BufTy).Contents (Elt Ideal)) (W : (⟨S512x256, .f32⟩ : BufTy).Contents (Elt Ideal))
    (b : (⟨S256, .f32⟩ : BufTy).Contents (Elt Ideal)) (bb : Fin 2) (l : Fin 512) (e : Fin 256) :
    val_main_v3 (F := Ideal) x W b (ix3 bb l e)
      = dense (fun k => x (ix3 bb l k)) (fun k e' => W (ix2 k e')) (fun e' => b (ix1 e')) e := by
  have hl : ∀ k : Fin 512, lidx_main_v0 (ix3 bb l e) k = ix3 bb l k := fun k => funext fun a => Fin.ext (by
    match a with | ⟨0, _⟩ => rfl | ⟨1, _⟩ => rfl | ⟨2, _⟩ => rfl)
  have hr : ∀ k : Fin 512, ridx_main_v0 (ix3 bb l e) k = ix2 k e := fun k => funext fun a => Fin.ext (by
    match a with | ⟨0, _⟩ => rfl | ⟨1, _⟩ => rfl)
  have hb : idx_main_v1 (idx_main_v2 (ix3 bb l e)) = ix1 e := funext fun a => Fin.ext (by
    match a with | ⟨0, _⟩ => rfl)
  rw [val_main_v3_apply, val_main_v0_apply, val_main_v2_apply, val_main_v1_apply]
  simp only [hl, hr, hb, Ideal.addf_def]
  rfl

/-- The first result stage is the normalised projection: the row times the reciprocal square root of the larger of its
    squared norm (a sum along the last axis into zero, read back through two broadcasts) and the floor. -/
theorem proj_stage (x : (⟨S2x512x512, .f32⟩ : BufTy).Contents (Elt Ideal)) (W : (⟨S512x256, .f32⟩ : BufTy).Contents (Elt Ideal))
    (b : (⟨S256, .f32⟩ : BufTy).Contents (Elt Ideal)) :
    val_main_v11 (F := Ideal) x W b = proj x W b := by
  funext i
  obtain ⟨bb, l, e, rfl⟩ : ∃ (bb : Fin 2) (l : Fin 512) (e : Fin 256), i = ix3 bb l e := ⟨i 0, i 1, i 2, eq_ix3 i⟩
  have hs : ∀ k : Fin 256, idx_main_v5 (idx_main_v6 (idx_main_v10 (ix3 bb l e))) k = ix3 bb l k := fun k =>
    funext fun a => Fin.ext (by match a with | ⟨0, _⟩ => rfl | ⟨1, _⟩ => rfl | ⟨2, _⟩ => rfl)
  rw [proj_ix3, val_main_v11_apply, val_main_v10_apply, val_main_v9_apply, val_main_v8_apply, val_main_v6_apply,
    val_main_v5_apply, val_main_v7_apply, val_main_cst_0_apply, val_main_cst_apply, dense_at]
  simp only [hs, val_main_v4_apply, dense_at, Ideal.mulf_def, Ideal.maximumf_def, Ideal.hostUnary_rsqrt_def,
    Ideal.ofBits_def, Ideal.ofBits_zero_f32, zero_add]
  rfl

/-! ## The scores -/

/-- Row `i` of q shifted by the relative encoding of the pair `(i, j)`: q reaches the pair through two broadcasts that
    forget `j`. -/
theorem shift_at (x : (⟨S2x512x512, .f32⟩ : BufTy).Contents (Elt Ideal)) (rel : (⟨S2x512x512x256, .f32⟩ : BufTy).Contents (Elt Ideal))
    (W : (⟨S512x256, .f32⟩ : BufTy).Contents (Elt Ideal)) (b : (⟨S256, .f32⟩ : BufTy).Contents (Elt Ideal))
    (bb : Fin 2) (i j : Fin 512) (d : Fin 256) :
    val_main_v39 (F := Ideal) x rel W b (ix4 bb i j d)
      = val_main_v11 (F := Ideal) x W b (ix3 bb i d) + rel (ix4 bb i j d) := by
  have h : idx_main_v37 (idx_main_v38 (ix4 bb i j d)) = ix3 bb i d := funext fun a => Fin.ext (by
    match a with | ⟨0, _⟩ => rfl | ⟨1, _⟩ => rfl | ⟨2, _⟩ => rfl)
  rw [val_main_v39_apply, val_main_v38_apply, val_main_v37_apply, h]
  rfl

/-- Row `j` of q at the pair `(i, j)`: q reaches the pair through two broadcasts that forget `i`. -/
theorem origin_at (x : (⟨S2x512x512, .f32⟩ : BufTy).Contents (Elt Ideal)) (W : (⟨S512x256, .f32⟩ : BufTy).Contents (Elt Ideal))
    (b : (⟨S256, .f32⟩ : BufTy).Contents (Elt Ideal)) (bb : Fin 2) (i j : Fin 512) (d : Fin 256) :
    val_main_v48 (F := Ideal) x W b (ix4 bb i j d) = val_main_v11 (F := Ideal) x W b (ix3 bb j d) := by
  have h : idx_main_v36 (idx_main_v48 (ix4 bb i j d)) = ix3 bb j d := funext fun a => Fin.ext (by
    match a with | ⟨0, _⟩ => rfl | ⟨1, _⟩ => rfl | ⟨2, _⟩ => rfl)
  rw [val_main_v48_apply, val_main_v36_apply, h]

/-- The shifted row scaled to unit length. -/
theorem shift_unit_at (x : (⟨S2x512x512, .f32⟩ : BufTy).Contents (Elt Ideal)) (rel : (⟨S2x512x512x256, .f32⟩ : BufTy).Contents (Elt Ideal))
    (W : (⟨S512x256, .f32⟩ : BufTy).Contents (Elt Ideal)) (b : (⟨S256, .f32⟩ : BufTy).Contents (Elt Ideal))
    (bb : Fin 2) (i j : Fin 512) (d : Fin 256) :
    val_main_v47 (F := Ideal) x rel W b (ix4 bb i j d)
      = unit (fun d' => val_main_v11 (F := Ideal) x W b (ix3 bb i d') + rel (ix4 bb i j d')) d := by
  have hs : ∀ k : Fin 256, idx_main_v41 (idx_main_v42 (idx_main_v46 (ix4 bb i j d))) k = ix4 bb i j k := fun k =>
    funext fun a => Fin.ext (by match a with | ⟨0, _⟩ => rfl | ⟨1, _⟩ => rfl | ⟨2, _⟩ => rfl | ⟨3, _⟩ => rfl)
  rw [val_main_v47_apply, val_main_v46_apply, val_main_v45_apply, val_main_v44_apply, val_main_v42_apply,
    val_main_v41_apply, val_main_v43_apply, val_main_cst_6_apply, val_main_cst_5_apply, shift_at]
  simp only [hs, val_main_v40_apply, shift_at, Ideal.mulf_def, Ideal.maximumf_def, Ideal.hostUnary_rsqrt_def,
    Ideal.ofBits_def, Ideal.ofBits_zero_f32, zero_add]
  rfl

/-- The last result stage is the scores of q: a sum along the last axis into zero of row `j` of q times the shifted
    unit row, the two factors in the other order than the specification writes them. -/
theorem scores_stage (x : (⟨S2x512x512, .f32⟩ : BufTy).Contents (Elt Ideal)) (rel : (⟨S2x512x512x256, .f32⟩ : BufTy).Contents (Elt Ideal))
    (W : (⟨S512x256, .f32⟩ : BufTy).Contents (Elt Ideal)) (b : (⟨S256, .f32⟩ : BufTy).Contents (Elt Ideal)) :
    val_main_v50 (F := Ideal) x rel W b = scores (proj x W b) rel := by
  rw [← proj_stage]
  funext t
  obtain ⟨bb, i, j, rfl⟩ : ∃ (bb : Fin 2) (i j : Fin 512), t = ix3 bb i j := ⟨t 0, t 1, t 2, eq_ix3 t⟩
  have hs : ∀ k : Fin 256, idx_main_v50 (ix3 bb i j) k = ix4 bb i j k := fun k =>
    funext fun a => Fin.ext (by match a with | ⟨0, _⟩ => rfl | ⟨1, _⟩ => rfl | ⟨2, _⟩ => rfl | ⟨3, _⟩ => rfl)
  rw [scores_ix3, val_main_v50_apply, val_main_cst_7_apply]
  simp only [hs, val_main_v49_apply, origin_at, shift_unit_at, Ideal.mulf_def, Ideal.ofBits_def, Ideal.ofBits_zero_f32,
    zero_add]
  exact Finset.sum_congr rfl fun d _ => mul_comm _ _

/-! ## The run -/

/-- Every execution of the reference ends with the scores, the normalised projection of the values and the normalised
    projection of the queries, as the specification states them, and with its ten arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
      r.2.mem ((c.tc : Thread nD τ).loc main_v50) = Cert.RelAttn.scores (Cert.RelAttn.proj (m ((c.tc : Thread nD τ).loc main_arg0)) (m ((c.tc : Thread nD τ).loc main_arg4)) (m ((c.tc : Thread nD τ).loc main_arg5))) (m ((c.tc : Thread nD τ).loc main_arg3))
      ∧ r.2.mem ((c.tc : Thread nD τ).loc main_v35) = Cert.RelAttn.proj (m ((c.tc : Thread nD τ).loc main_arg2)) (m ((c.tc : Thread nD τ).loc main_arg8)) (m ((c.tc : Thread nD τ).loc main_arg9))
      ∧ r.2.mem ((c.tc : Thread nD τ).loc main_v11) = Cert.RelAttn.proj (m ((c.tc : Thread nD τ).loc main_arg0)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (Cert.ReferenceIdeal.defs (F := Ideal)) _ _).mono (fun _ h c =>
    ⟨(h c).1.trans ((val_main_v50_eq m c).trans (scores_stage _ _ _ _)),
     (h c).2.1.trans ((val_main_v11_eq _ _ _).trans (proj_stage _ _ _)),
     (h c).2.2.1.trans ((val_main_v11_eq _ _ _).trans (proj_stage _ _ _)),
     (h c).2.2.2⟩)
    (Cert.ReferenceIdeal.Value.run (F := Ideal) m ρ)

end Cert.RelAttn.Ref

end
-- ==== Proof.lean ====
/-
  Two programs compute three arrays from ten: q and v, the rows of the queries and of the values projected
  (x · W + b over 512 inputs, 256 outputs) and scaled to unit length with the squared norm floored at the binary32
  number nearest 1e-12; and the scores, where row i of q is shifted by the relative encoding of the pair (i, j),
  scaled to unit length the same way, and multiplied into row j of q along the 256 lanes. The kernel program
  computes q and v in one region, one batch per grid point, and the scores in a second region, one [32, 128] block
  per grid point, reading q through two windows; the reference computes all of it with whole-array operations.

  At the exact instance both are the same functions of the arguments (Proof/Spec.lean): a change of float format is
  the identity, the kernel's matrix product into a zero accumulator and the reference's contraction are one sum over
  the 512 inputs, a lane sum from zero is the sum, and the only law between the two spellings of the scores is the
  commutativity of the product of extended reals — so no finiteness of the inputs is used, and the precondition is
  never opened. The kernel program's run (Proof/RunKI.lean, Proof/RunK.lean at the word level) names every unscoped
  buffer at the end; its frame reads the arguments back (Proof/ArgsKI.lean, Proof/ArgsK.lean), its three results are
  the specification's (Proof/FinalKI.lean over Proof/ArraysKI.lean and Proof/Payloads.lean); the reference's run is
  read back as the same three functions (Proof/RefSpec.lean). The idealization rewrote nothing, so there is nothing to
  preserve.
-/
import proofs.«152561_j10161892623130_2_alg».proof.Defs
import proofs.«152561_j10161892623130_2_alg».proof.Proof.Gen.Kernel
import proofs.«152561_j10161892623130_2_alg».proof.Proof.Gen.KernelIdeal
import proofs.«152561_j10161892623130_2_alg».proof.Proof.Gen.ReferenceIdeal
import proofs.«152561_j10161892623130_2_alg».proof.Proof.Gen.Pre_finite_inputs
import proofs.«152561_j10161892623130_2_alg».proof.Proof.ArgsK
import proofs.«152561_j10161892623130_2_alg».proof.Proof.FinalKI
import proofs.«152561_j10161892623130_2_alg».proof.Proof.RefSpec
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ =>
  (θ_run Cert.Kernel.defs _ _).mono (fun r h c => Cert.Kernel.Run.frame_post m ρ r h c) (Cert.Kernel.Run.run_main (F := Bits) m ρ)

/-- So does its reading at the exact instance. -/
theorem frame_ki : Cert.frame_KernelIdeal := fun m ρ _ =>
  (θ_run Cert.KernelIdeal.defs _ _).mono (fun r h c => Cert.KernelIdeal.Run.frame_post m ρ r h c) (Cert.KernelIdeal.Run.run_main (F := Ideal) m ρ)

/-- The reference runs and leaves its arguments as launched: its run with the three results dropped. -/
theorem frame_ri : Cert.frame_ReferenceIdeal := fun m ρ _ =>
  (θ_run Cert.ReferenceIdeal.defs _ _).mono (fun _ h c => (h c).2.2.2) (Cert.RelAttn.Ref.run m ρ)

/-- The idealization rewrote no operation. -/
theorem preserves : Cert.preserves_Kernel_KernelIdeal := trivial

/-- At the exact instance, from memories agreeing on the arguments, the kernel program ends with the scores, v and q
    of the specification at its arguments and the reference with the same three functions at its own: equal arrays. -/
theorem algebraic : Cert.algebraic_KernelIdeal_ReferenceIdeal := by
  intro m ρ m' ρ' _ hagree
  refine ⟨_, _, _, Cert.KernelIdeal.Final.run m ρ, ?_⟩
  refine (θ_run Cert.ReferenceIdeal.defs _ _).mono (fun r h c => ?_) (Cert.RelAttn.Ref.run m' ρ')
  obtain ⟨h0, h1, h2, hargs⟩ := h c
  obtain ⟨a0, -, a2, a3, a4, a5, -, -, a8, a9⟩ := hagree c
  refine ⟨h0.trans ?_, h1.trans ?_, h2.trans ?_, hargs⟩
  · rw [a0, a4, a5, a3]
  · rw [a2, a8, a9]
  · rw [a0, a4, a5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
